-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x256x256 .f32) (main_arg10 : FVec F S3x256 .f32) (main_arg11 : FVec F S256x10 .f32) (main_arg12 : FVec F S10 .f32) (main_v33 : IVec S_ 1) : IVec S_ 1 :=
  let main_v34 : FVec F S3x256x256 .f32 := Host.absf main_arg9
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S256x10 .f32 := Host.absf main_arg11
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S256 .f32) (main_arg7 : FVec F S256 .f32) (main_arg8 : FVec F S256 .f32) (main_arg9 : FVec F S3x256x256 .f32) (main_arg10 : FVec F S3x256 .f32) (main_arg11 : FVec F S256x10 .f32) (main_arg12 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256 .f32) (main_arg6 : FVec F S256 .f32) (main_arg7 : FVec F S256 .f32) (main_arg8 : FVec F S256 .f32) (main_arg9 : FVec F S3x256x256 .f32) (main_arg10 : FVec F S3x256 .f32) (main_arg11 : FVec F S256x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S10000x128 : Shape := ⟨2, ![10000, 128]⟩
abbrev S10000x256 : Shape := ⟨2, ![10000, 256]⟩
abbrev S850000x256 : Shape := ⟨2, ![850000, 256]⟩
abbrev S1x256 : Shape := ⟨2, ![1, 256]⟩
abbrev S1x256x256 : Shape := ⟨3, ![1, 256, 256]⟩
abbrev S256x256 : Shape := ⟨2, ![256, 256]⟩
abbrev S50000x1 : Shape := ⟨2, ![50000, 1]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 160
  | .vmem => 48
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256, .f32⟩
  | 8 => ⟨S256, .f32⟩
  | 9 => ⟨S3x256x256, .f32⟩
  | 10 => ⟨S3x256, .f32⟩
  | 11 => ⟨S256x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .bf16⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .bf16⟩
  | 56 => ⟨S850000x1, .f32⟩
  | 57 => ⟨S850000x256, .f32⟩
  | 58 => ⟨S850000x256, .f32⟩
  | 59 => ⟨S850000x256, .f32⟩
  | 60 => ⟨S_, .f32⟩
  | 61 => ⟨S50000x256, .f32⟩
  | 62 => ⟨S850000x1, .i32⟩
  | 63 => ⟨S50000x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S50000x256, .bf16⟩
  | 70 => ⟨S1x256x256, .f32⟩
  | 71 => ⟨S256x256, .f32⟩
  | 72 => ⟨S50000x256, .bf16⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x256, .bf16⟩
  | 82 => ⟨S850000x1, .f32⟩
  | 83 => ⟨S850000x256, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S1x256, .f32⟩
  | 91 => ⟨S256, .f32⟩
  | 92 => ⟨S1x256, .f32⟩
  | 93 => ⟨S50000x256, .bf16⟩
  | 94 => ⟨S1x256x256, .f32⟩
  | 95 => ⟨S256x256, .f32⟩
  | 96 => ⟨S50000x256, .bf16⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x256, .bf16⟩
  | 106 => ⟨S850000x1, .f32⟩
  | 107 => ⟨S850000x256, .f32⟩
  | 108 => ⟨S850000x256, .f32⟩
  | 109 => ⟨S850000x256, .f32⟩
  | 110 => ⟨S_, .f32⟩
  | 111 => ⟨S50000x256, .f32⟩
  | 112 => ⟨S850000x1, .i32⟩
  | 113 => ⟨S50000x256, .f32⟩
  | 114 => ⟨S1x256, .f32⟩
  | 115 => ⟨S256, .f32⟩
  | 116 => ⟨S1x256, .f32⟩
  | 117 => ⟨S50000x256, .bf16⟩
  | 118 => ⟨S1x256x256, .f32⟩
  | 119 => ⟨S256x256, .f32⟩
  | 120 => ⟨S50000x256, .bf16⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x256, .bf16⟩
  | 2 => ⟨S850000x1, .f32⟩
  | 3 => ⟨S850000x256, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S256, .f32⟩
  | 12 => ⟨S1x256, .f32⟩
  | 13 => ⟨S50000x256, .f32⟩
  | 14 => ⟨S_, .f32⟩
  | 15 => ⟨S128x256, .f32⟩
  | 16 => ⟨S50000x1, .i32⟩
  | 17 => ⟨S128x256, .f32⟩
  | 18 => ⟨S_, .f32⟩
  | 19 => ⟨S50000, .f32⟩
  | 20 => ⟨S_, .f32⟩
  | 21 => ⟨S128, .f32⟩
  | 22 => ⟨S50000x1, .i32⟩
  | 23 => ⟨S128, .f32⟩
  | 24 => ⟨S_, .f32⟩
  | 25 => ⟨S128, .f32⟩
  | 26 => ⟨S128, .f32⟩
  | 27 => ⟨S128x1, .f32⟩
  | 28 => ⟨S128x256, .f32⟩
  | 29 => ⟨S128x256, .f32⟩
  | 30 => ⟨S1x10, .f32⟩
  | 31 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S10000x256, .bf16⟩
  | .local _ .vmem, ⟨4, _⟩ => ⟨S10000x256, .bf16⟩
  | .local _ .vmem, ⟨5, _⟩ => ⟨S10000x256, .f32⟩
  | .local _ .vmem, ⟨6, _⟩ => ⟨S10000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S10000x256, .bf16⟩
  | .local _ .vmem, ⟨13, _⟩ => ⟨S10000x256, .bf16⟩
  | .local _ .vmem, ⟨14, _⟩ => ⟨S10000x256, .bf16⟩
  | .local _ .vmem, ⟨15, _⟩ => ⟨S10000x256, .bf16⟩
  | .local _ .vmem, ⟨16, _⟩ => ⟨S256x256, .f32⟩
  | .local _ .vmem, ⟨17, _⟩ => ⟨S10000x256, .bf16⟩
  | .local _ .vmem, ⟨18, _⟩ => ⟨S10000x256, .bf16⟩
  | .local _ .vmem, ⟨19, _⟩ => ⟨S10000x256, .f32⟩
  | .local _ .vmem, ⟨20, _⟩ => ⟨S10000x256, .f32⟩
  | .local _ .vmem, ⟨21, _⟩ => ⟨S1x256, .f32⟩
  | .local _ .vmem, ⟨22, _⟩ => ⟨S10000x256, .bf16⟩
  | .local _ .vmem, ⟨23, _⟩ => ⟨S10000x256, .bf16⟩
  | .local _ .vmem, ⟨24, _⟩ => ⟨S10000x256, .bf16⟩
  | .local _ .vmem, ⟨25, _⟩ => ⟨S10000x256, .bf16⟩
  | .local _ .vmem, ⟨26, _⟩ => ⟨S256x256, .f32⟩
  | .local _ .vmem, ⟨27, _⟩ => ⟨S10000x256, .bf16⟩
  | .local _ .vmem, ⟨28, _⟩ => ⟨S10000x256, .bf16⟩
  | .local _ .vmem, ⟨29, _⟩ => ⟨S10000x256, .f32⟩
  | .local _ .vmem, ⟨30, _⟩ => ⟨S10000x256, .f32⟩
  | .local _ .vmem, ⟨31, _⟩ => ⟨S1x256, .f32⟩
  | .local _ .vmem, ⟨32, _⟩ => ⟨S10000x256, .bf16⟩
  | .local _ .vmem, ⟨33, _⟩ => ⟨S10000x256, .bf16⟩
  | .local _ .vmem, ⟨34, _⟩ => ⟨S10000x256, .bf16⟩
  | .local _ .vmem, ⟨35, _⟩ => ⟨S10000x256, .bf16⟩
  | .local _ .vmem, ⟨36, _⟩ => ⟨S256x256, .f32⟩
  | .local _ .vmem, ⟨37, _⟩ => ⟨S10000x256, .bf16⟩
  | .local _ .vmem, ⟨38, _⟩ => ⟨S10000x256, .bf16⟩
  | .local _ .vmem, ⟨39, _⟩ => ⟨S10000x256, .f32⟩
  | .local _ .vmem, ⟨40, _⟩ => ⟨S10000x256, .f32⟩
  | .local _ .vmem, ⟨41, _⟩ => ⟨S1x256, .f32⟩
  | .local _ .vmem, ⟨42, _⟩ => ⟨S10000x256, .f32⟩
  | .local _ .vmem, ⟨43, _⟩ => ⟨S10000x256, .f32⟩
  | .local _ .vmem, ⟨44, _⟩ => ⟨S128x256, .f32⟩
  | .local _ .vmem, ⟨45, _⟩ => ⟨S256x10, .f32⟩
  | .local _ .vmem, ⟨46, _⟩ => ⟨S1x10, .f32⟩
  | .local _ .vmem, ⟨47, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_10 : Ref sig .tc := ⟨.hbm, 97, rfl⟩
abbrev main_v72 : Ref sig .tc := ⟨.hbm, 98, rfl⟩
abbrev main_v73 : Ref sig .tc := ⟨.hbm, 99, rfl⟩
abbrev main_c_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_13 : Ref sig .tc := ⟨.hbm, 121, rfl⟩
abbrev main_v93 : Ref sig .tc := ⟨.hbm, 122, rfl⟩
abbrev main_v94 : Ref sig .tc := ⟨.hbm, 123, rfl⟩
abbrev main_c_14 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_15 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_16 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_17 : Ref sig .tc := ⟨.hbm, 146, rfl⟩
abbrev main_v114 : Ref sig .tc := ⟨.hbm, 147, rfl⟩
abbrev main_cst_18 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_19 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem1_0 : DmaSem sig := 45
abbrev cc8_sem2_0 : DmaSem sig := 46
abbrev cc8_sem3_0 : DmaSem sig := 47

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S256x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  slices_S3x256x256_S1x256x256_0_0_0 : S3x256x256.Slices ![0, 0, 0] S1x256x256
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S10_S1x10 : S10.ShapeCasts S1x10
  shapeCasts_S128x256_S128x256 : S128x256.ShapeCasts S128x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x256_S10000x256_1_0_0_1_n_n_wf : DotDims.WF S10000x128 S128x256 S10000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S10000x256_S256x256_S10000x256_1_0_0_1_n_n_wf : DotDims.WF S10000x256 S256x256 S10000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S50000x256.size a
  hwx0_2 : ∀ i : grid0.Coords, EltTy.bits .bf16 = 32 ∨ (Rect.block (s := S50000x256) S10000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .f32 = 32 ∨ (Rect.block (s := S50000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x256.size a ≤ S50000x256.size a
  hwx1_6 : ∀ i : grid1.Coords, EltTy.bits .bf16 = 32 ∨ (Rect.block (s := S50000x256) S10000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S50000x256.size a
  hwx2_0 : ∀ i : grid2.Coords, EltTy.bits .bf16 = 32 ∨ (Rect.block (s := S50000x256) S10000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S50000x256.size a
  hwx2_2 : ∀ i : grid2.Coords, EltTy.bits .bf16 = 32 ∨ (Rect.block (s := S50000x256) S10000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S50000x256.size a
  hwx3_0 : ∀ i : grid3.Coords, EltTy.bits .f32 = 32 ∨ (Rect.block (s := S50000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x256.size a ≤ S50000x256.size a
  hwx3_2 : ∀ i : grid3.Coords, EltTy.bits .bf16 = 32 ∨ (Rect.block (s := S50000x256) S10000x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x256.size a ≤ S50000x256.size a
  hwx4_0 : ∀ i : grid4.Coords, EltTy.bits .bf16 = 32 ∨ (Rect.block (s := S50000x256) S10000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x256.size a ≤ S50000x256.size a
  hwx4_2 : ∀ i : grid4.Coords, EltTy.bits .bf16 = 32 ∨ (Rect.block (s := S50000x256) S10000x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x256.size a ≤ S50000x256.size a
  hwx5_0 : ∀ i : grid5.Coords, EltTy.bits .f32 = 32 ∨ (Rect.block (s := S50000x256) S10000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x256.size a ≤ S50000x256.size a
  hwx5_2 : ∀ i : grid5.Coords, EltTy.bits .bf16 = 32 ∨ (Rect.block (s := S50000x256) S10000x256.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x256.size a ≤ S50000x256.size a
  hwx6_0 : ∀ i : grid6.Coords, EltTy.bits .bf16 = 32 ∨ (Rect.block (s := S50000x256) S10000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x256.size a ≤ S50000x256.size a
  hwx6_2 : ∀ i : grid6.Coords, EltTy.bits .bf16 = 32 ∨ (Rect.block (s := S50000x256) S10000x256.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x256.size a ≤ S50000x256.size a
  hwx7_0 : ∀ i : grid7.Coords, EltTy.bits .f32 = 32 ∨ (Rect.block (s := S50000x256) S10000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x256.size a ≤ S50000x256.size a
  hwx7_2 : ∀ i : grid7.Coords, EltTy.bits .f32 = 32 ∨ (Rect.block (s := S50000x256) S10000x256.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x256.size a ≤ S128x256.size a
  hwx8_0 : ∀ i : grid8.Coords, EltTy.bits .f32 = 32 ∨ (Rect.block (s := S128x256) S128x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x10.size a ≤ S256x10.size a
  hwx8_1 : ∀ i : grid8.Coords, EltTy.bits .f32 = 32 ∨ (Rect.block (s := S256x10) S256x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S10000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S10000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S10000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S10000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S10000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S10000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S10000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S10000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110) S10000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v122) S128x256.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S256x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v124) S128x10.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S1x256x256 : Shape := ⟨3, ![1, 256, 256]⟩
abbrev S256x256 : Shape := ⟨2, ![256, 256]⟩
abbrev S50000x1 : Shape := ⟨2, ![50000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 201
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256, .f32⟩
  | 8 => ⟨S256, .f32⟩
  | 9 => ⟨S3x256x256, .f32⟩
  | 10 => ⟨S3x256, .f32⟩
  | 11 => ⟨S256x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S256, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S50000x256, .f32⟩
  | 84 => ⟨S50000x256, .f32⟩
  | 85 => ⟨S1x256x256, .f32⟩
  | 86 => ⟨S256x256, .f32⟩
  | 87 => ⟨S1x256, .f32⟩
  | 88 => ⟨S256, .f32⟩
  | 89 => ⟨S50000x256, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x256, .f32⟩
  | 99 => ⟨S850000x1, .f32⟩
  | 100 => ⟨S850000x256, .f32⟩
  | 101 => ⟨S850000x256, .f32⟩
  | 102 => ⟨S_, .f32⟩
  | 103 => ⟨S50000x256, .f32⟩
  | 104 => ⟨S850000x1, .i32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S1x256x256, .f32⟩
  | 113 => ⟨S256x256, .f32⟩
  | 114 => ⟨S1x256, .f32⟩
  | 115 => ⟨S256, .f32⟩
  | 116 => ⟨S50000x256, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x256, .f32⟩
  | 126 => ⟨S850000x1, .f32⟩
  | 127 => ⟨S850000x256, .f32⟩
  | _ => ⟨S50000x128, .f32⟩

abbrev hbmTy0_1 (i : Nat) : BufTy := match i % 128 with
  | 0 => ⟨S850000x256, .f32⟩
  | 1 => ⟨S_, .f32⟩
  | 2 => ⟨S50000x256, .f32⟩
  | 3 => ⟨S850000x1, .i32⟩
  | 4 => ⟨S50000x256, .f32⟩
  | 5 => ⟨S1x256, .f32⟩
  | 6 => ⟨S50000x256, .f32⟩
  | 7 => ⟨S50000x256, .f32⟩
  | 8 => ⟨S_, .f32⟩
  | 9 => ⟨S50000x256, .f32⟩
  | 10 => ⟨S50000x256, .f32⟩
  | 11 => ⟨S1x256x256, .f32⟩
  | 12 => ⟨S256x256, .f32⟩
  | 13 => ⟨S1x256, .f32⟩
  | 14 => ⟨S256, .f32⟩
  | 15 => ⟨S50000x256, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x256, .f32⟩
  | 25 => ⟨S850000x1, .f32⟩
  | 26 => ⟨S850000x256, .f32⟩
  | 27 => ⟨S850000x256, .f32⟩
  | 28 => ⟨S_, .f32⟩
  | 29 => ⟨S50000x256, .f32⟩
  | 30 => ⟨S850000x1, .i32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S_, .f32⟩
  | 39 => ⟨S128x256, .f32⟩
  | 40 => ⟨S50000x1, .i32⟩
  | 41 => ⟨S128x256, .f32⟩
  | 42 => ⟨S_, .f32⟩
  | 43 => ⟨S50000, .f32⟩
  | 44 => ⟨S_, .f32⟩
  | 45 => ⟨S128, .f32⟩
  | 46 => ⟨S50000x1, .i32⟩
  | 47 => ⟨S128, .f32⟩
  | 48 => ⟨S_, .f32⟩
  | 49 => ⟨S128, .f32⟩
  | 50 => ⟨S128, .f32⟩
  | 51 => ⟨S128x1, .f32⟩
  | 52 => ⟨S128x256, .f32⟩
  | 53 => ⟨S128x256, .f32⟩
  | 54 => ⟨S128x10, .f32⟩
  | 55 => ⟨S1x10, .f32⟩
  | 56 => ⟨S128x10, .f32⟩
  | 57 => ⟨S128x10, .f32⟩
  | 58 => ⟨S_, .f32⟩
  | 59 => ⟨S128, .f32⟩
  | 60 => ⟨S_, .f32⟩
  | 61 => ⟨S128, .f32⟩
  | 62 => ⟨S128, .f32⟩
  | 63 => ⟨S128x1, .f32⟩
  | 64 => ⟨S128x10, .f32⟩
  | 65 => ⟨S128x10, .f32⟩
  | 66 => ⟨S128x10, .f32⟩
  | 67 => ⟨S_, .f32⟩
  | 68 => ⟨S128, .f32⟩
  | 69 => ⟨S128x1, .f32⟩
  | 70 => ⟨S128x1, .f32⟩
  | 71 => ⟨S128x10, .f32⟩
  | 72 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_cst : Ref sig .tc := ⟨.hbm, 82, rfl⟩
abbrev main_call0_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_8 : Ref sig .tc := ⟨.hbm, 90, rfl⟩
abbrev main_v65 : Ref sig .tc := ⟨.hbm, 91, rfl⟩
abbrev main_v66 : Ref sig .tc := ⟨.hbm, 92, rfl⟩
abbrev main_c_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_11 : Ref sig .tc := ⟨.hbm, 117, rfl⟩
abbrev main_v87 : Ref sig .tc := ⟨.hbm, 118, rfl⟩
abbrev main_v88 : Ref sig .tc := ⟨.hbm, 119, rfl⟩
abbrev main_c_12 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_13 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call2_cst : Ref sig .tc := ⟨.hbm, 136, rfl⟩
abbrev main_call2_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_14 : Ref sig .tc := ⟨.hbm, 144, rfl⟩
abbrev main_v109 : Ref sig .tc := ⟨.hbm, 145, rfl⟩
abbrev main_v110 : Ref sig .tc := ⟨.hbm, 146, rfl⟩
abbrev main_c_15 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_16 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call3_cst : Ref sig .tc := ⟨.hbm, 163, rfl⟩
abbrev main_call3_v0 : Ref sig .tc := ⟨.hbm, 164, rfl⟩
abbrev main_v125 : Ref sig .tc := ⟨.hbm, 165, rfl⟩
abbrev main_cst_17 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_18 : Ref sig .tc := ⟨.hbm, 170, rfl⟩
abbrev main_v129 : Ref sig .tc := ⟨.hbm, 171, rfl⟩
abbrev main_cst_19 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_20 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_call4_cst : Ref sig .tc := ⟨.hbm, 186, rfl⟩
abbrev main_call4_v0 : Ref sig .tc := ⟨.hbm, 187, rfl⟩
abbrev main_call4_cst_0 : Ref sig .tc := ⟨.hbm, 188, rfl⟩
abbrev main_call4_v1 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_cst_1 : Ref sig .tc := ⟨.hbm, 195, rfl⟩
abbrev main_call4_v7 : Ref sig .tc := ⟨.hbm, 196, rfl⟩
abbrev main_call4_v8 : Ref sig .tc := ⟨.hbm, 197, rfl⟩
abbrev main_call4_v9 : Ref sig .tc := ⟨.hbm, 198, rfl⟩
abbrev main_call4_v10 : Ref sig .tc := ⟨.hbm, 199, rfl⟩
abbrev main_v142 : Ref sig .tc := ⟨.hbm, 200, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KernelRun.lean ====
/-
  The idealized kernel's run with its result NAMED. The program is nine kernel regions among stretches of
  host operations; its buffers' contents at each boundary are a fold from the launch memory
  (the generated `Gen.W0 … Gen.W18`). Every weakly fair execution terminates, nothing faulting, with the
  argument arrays as launched and the result buffer at the last boundary's contents `Gen.W18` — the launch over
  the generated segments once more, now keeping the result buffer's reading next to the arguments'.
-/
import proofs.«158928_j32839319945298_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v124) = W18 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v124 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Named

end
-- ==== Proof.Stages.lean ====
/-
  The graph-convolution network's stages as whole-array functions, shared by both programs.

  A node-feature matrix Y : [50000, 256] is aggregated over the 800000 edges and the 50000 self-loops:
  row `src e` of Y is scaled by `nrm e = dinv (src e) · dinv (dst e)` and added into row `dst e`
  (`agg`), where `dinv = deg^(-1/2)` and `deg` counts the edges arriving at a node. A layer is a
  matrix product, the aggregation, a bias (in the first layer also the batch normalisation with running
  statistics) and the rectifier. The last layer's rows are averaged per graph (`pool`) and classified
  by one more matrix product, a bias and the logarithm of the softmax along the ten classes (`cls`).
-/
import proofs.«158928_j32839319945298_1_alg».proof.Proof.Gen.ReferenceIdeal

noncomputable section

namespace Cert.Stages

open Cert.ReferenceIdeal Cert.ReferenceIdeal.Gen Idealize.ShloMosaic

variable {F : FTy → Type} [FloatOps F]

/-- The edge list's row `r` followed by the self-loops 0 … 49999. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index as a gather reads it: a negative one counts from the end; as a column. -/
def wrapIdx (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- deg^(-1/2), the degree counting arriving edges and the self-loop. -/
def dinvOf (e : (⟨S2x800000, .i32⟩ : BufTy).Contents (Elt F)) : (⟨S50000, .f32⟩ : BufTy).Contents (Elt F) :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32)))

/-- The symmetric normalisation of an edge: dinv at its source times dinv at its target. -/
def nrmOf (e : (⟨S2x800000, .i32⟩ : BufTy).Contents (Elt F)) : (⟨S850000, .f32⟩ : BufTy).Contents (Elt F) :=
  mulf (Host.gather gather_S50000_S850000x1_S850000_n_0_n_n_0_1_1 (dinvOf e) (wrapIdx (srcOf e))) (Host.gather gather_S50000_S850000x1_S850000_n_0_n_n_0_1_1 (dinvOf e) (wrapIdx (dstOf e)))

/-- The aggregation: row `src e` of `Y`, scaled by `nrm e`, added into row `dst e`. -/
def agg (src dst : (⟨S850000, .i32⟩ : BufTy).Contents (Elt F)) (nrm : (⟨S850000, .f32⟩ : BufTy).Contents (Elt F))
    (Y : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 Y (wrapIdx src)) (broadcastInDim S850000x256 ![0, 1] bcast_S850000x1_S850000x256_0_1 (broadcastInDim S850000x1 ![0] bcast_S850000_S850000x1_0 nrm)))

/-- A feature vector repeated on every node's row. -/
def rowvec (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- The rectifier max(x, 0). -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The first layer after aggregation: bias, batch normalisation with running statistics, rectifier:
    max(((a + b1) − mean) · (var + ε)^(-1/2) · gamma + beta, 0). -/
def bnRelu (a : (⟨S50000x256, .f32⟩ : BufTy).Contents (Elt F)) (b1 gamma beta mean var : (⟨S256, .f32⟩ : BufTy).Contents (Elt F)) :
    (⟨S50000x256, .f32⟩ : BufTy).Contents (Elt F) :=
  relu (addf (mulf (mulf (subf (addf a (rowvec b1)) (rowvec mean)) (rowvec (Host.rsqrt (addf var (broadcastInDim S256 ![] bcast_S_S256 (constant S_ .f32 0x3727C5AC#32)))))) (rowvec gamma)) (rowvec beta))

/-- A later layer after aggregation: max(a + b, 0). -/
def biasRelu (a : (⟨S50000x256, .f32⟩ : BufTy).Contents (Elt F)) (b : (⟨S256, .f32⟩ : BufTy).Contents (Elt F)) :
    (⟨S50000x256, .f32⟩ : BufTy).Contents (Elt F) :=
  relu (addf a (rowvec b))

/-- The first layer's feature transform x · W1. -/
def mm128 (x : (⟨S50000x128, .f32⟩ : BufTy).Contents (Elt F)) (w : (⟨S128x256, .f32⟩ : BufTy).Contents (Elt F)) :
    (⟨S50000x256, .f32⟩ : BufTy).Contents (Elt F) :=
  Host.dotGeneral dot_S50000x128_S128x256_S50000x256_1_0_0_1_n_n none x w

/-- A later layer's feature transform h · W. -/
def mm256 (x : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none x w

/-- Layer `k`'s weight matrix out of the stack of three. -/
def wsl0 (w : (⟨S3x256x256, .f32⟩ : BufTy).Contents (Elt F)) : (⟨S256x256, .f32⟩ : BufTy).Contents (Elt F) :=
  shapeCast _ (extractStridedSlice S1x256x256 ![0, 0, 0] w slices_S3x256x256_S1x256x256_0_0_0) shapeCasts_S1x256x256_S256x256
def wsl1 (w : (⟨S3x256x256, .f32⟩ : BufTy).Contents (Elt F)) : (⟨S256x256, .f32⟩ : BufTy).Contents (Elt F) :=
  shapeCast _ (extractStridedSlice S1x256x256 ![1, 0, 0] w slices_S3x256x256_S1x256x256_1_0_0) shapeCasts_S1x256x256_S256x256
def wsl2 (w : (⟨S3x256x256, .f32⟩ : BufTy).Contents (Elt F)) : (⟨S256x256, .f32⟩ : BufTy).Contents (Elt F) :=
  shapeCast _ (extractStridedSlice S1x256x256 ![2, 0, 0] w slices_S3x256x256_S1x256x256_2_0_0) shapeCasts_S1x256x256_S256x256

/-- Layer `k`'s bias out of the stack of three. -/
def bsl0 (b : (⟨S3x256, .f32⟩ : BufTy).Contents (Elt F)) : (⟨S256, .f32⟩ : BufTy).Contents (Elt F) :=
  shapeCast _ (extractStridedSlice S1x256 ![0, 0] b slices_S3x256_S1x256_0_0) shapeCasts_S1x256_S256
def bsl1 (b : (⟨S3x256, .f32⟩ : BufTy).Contents (Elt F)) : (⟨S256, .f32⟩ : BufTy).Contents (Elt F) :=
  shapeCast _ (extractStridedSlice S1x256 ![1, 0] b slices_S3x256_S1x256_1_0) shapeCasts_S1x256_S256
def bsl2 (b : (⟨S3x256, .f32⟩ : BufTy).Contents (Elt F)) : (⟨S256, .f32⟩ : BufTy).Contents (Elt F) :=
  shapeCast _ (extractStridedSlice S1x256 ![2, 0] b slices_S3x256_S1x256_2_0) shapeCasts_S1x256_S256

/-- The mean of the node rows of each graph: the rows' sum per graph over max(node count, 1). -/
def pool (batch : (⟨S50000, .i32⟩ : BufTy).Contents (Elt F)) (h : (⟨S50000x256, .f32⟩ : BufTy).Contents (Elt F)) :
    (⟨S128x256, .f32⟩ : BufTy).Contents (Elt F) :=
  Host.divf (Host.scatterAdd scatter_S128x256_S50000x1_S50000x256_1_0_0_1 (broadcastInDim S128x256 ![] bcast_S_S128x256 (constant S_ .f32 0x00000000#32)) (broadcastInDim S50000x1 ![0] bcast_S50000_S50000x1_0 batch) h) (broadcastInDim S128x256 ![0, 1] bcast_S128x1_S128x256_0_1 (broadcastInDim S128x1 ![0] bcast_S128_S128x1_0 (maximumf (Host.scatterAdd scatter_S128_S50000x1_S50000_n_0_0_1 (broadcastInDim S128 ![] bcast_S_S128 (constant S_ .f32 0x00000000#32)) (broadcastInDim S50000x1 ![0] bcast_S50000_S50000x1_0 batch) (broadcastInDim S50000 ![] bcast_S_S50000 (constant S_ .f32 0x3F800000#32))) (broadcastInDim S128 ![] bcast_S_S128 (constant S_ .f32 0x3F800000#32)))))

/-- A row of logits minus its maximum. -/
def shifted (z : (⟨S128x10, .f32⟩ : BufTy).Contents (Elt F)) : (⟨S128x10, .f32⟩ : BufTy).Contents (Elt F) :=
  subf z (broadcastInDim S128x10 ![0, 1] bcast_S128x1_S128x10_0_1 (broadcastInDim S128x1 ![0] bcast_S128_S128x1_0 (maximumf (broadcastInDim S128 ![] bcast_S_S128 (constant S_ .f32 0xFF800000#32)) (Host.reduce FloatOps.maximumf z (constant S_ .f32 0xFF800000#32) reducesTo_S128x10_S128_d1 h_S_))))

/-- log softmax along the ten classes: (z − max z) − log Σ exp (z − max z). -/
def logSoftmax (z : (⟨S128x10, .f32⟩ : BufTy).Contents (Elt F)) : (⟨S128x10, .f32⟩ : BufTy).Contents (Elt F) :=
  subf (shifted z) (broadcastInDim S128x10 ![0, 1] bcast_S128x1_S128x10_0_1 (Host.log (broadcastInDim S128x1 ![0] bcast_S128_S128x1_0 (Host.reduceAdd (Host.exp (shifted z)) (constant S_ .f32 0x00000000#32) reducesTo_S128x10_S128_d1 h_S_))))

/-- The classifier: log softmax of pooled · W2 + b2. -/
def cls (p : (⟨S128x256, .f32⟩ : BufTy).Contents (Elt F)) (w2 : (⟨S256x10, .f32⟩ : BufTy).Contents (Elt F)) (b2 : (⟨S10, .f32⟩ : BufTy).Contents (Elt F)) :
    (⟨S128x10, .f32⟩ : BufTy).Contents (Elt F) :=
  logSoftmax (addf (Host.dotGeneral dot_S128x256_S256x10_S128x10_1_0_0_1_n_n none p w2) (broadcastInDim S128x10 ![0, 1] bcast_S1x10_S128x10_0_1 (broadcastInDim S1x10 ![1] bcast_S10_S1x10_1 b2)))

/-- The whole network, from the thirteen inputs. -/
def net (a0 : (⟨S50000x128, .f32⟩ : BufTy).Contents (Elt F)) (a1 : (⟨S2x800000, .i32⟩ : BufTy).Contents (Elt F)) (a2 : (⟨S50000, .i32⟩ : BufTy).Contents (Elt F))
    (a3 : (⟨S128x256, .f32⟩ : BufTy).Contents (Elt F)) (a4 a5 a6 a7 a8 : (⟨S256, .f32⟩ : BufTy).Contents (Elt F))
    (a9 : (⟨S3x256x256, .f32⟩ : BufTy).Contents (Elt F)) (a10 : (⟨S3x256, .f32⟩ : BufTy).Contents (Elt F))
    (a11 : (⟨S256x10, .f32⟩ : BufTy).Contents (Elt F)) (a12 : (⟨S10, .f32⟩ : BufTy).Contents (Elt F)) : (⟨S128x10, .f32⟩ : BufTy).Contents (Elt F) :=
  cls (pool a2
    (biasRelu (agg (srcOf a1) (dstOf a1) (nrmOf a1) (mm256
      (biasRelu (agg (srcOf a1) (dstOf a1) (nrmOf a1) (mm256
        (biasRelu (agg (srcOf a1) (dstOf a1) (nrmOf a1) (mm256
          (bnRelu (agg (srcOf a1) (dstOf a1) (nrmOf a1) (mm128 a0 a3)) a4 a5 a6 a7 a8)
          (wsl0 a9))) (bsl0 a10))
        (wsl1 a9))) (bsl1 a10))
      (wsl2 a9))) (bsl2 a10))) a11 a12

end Cert.Stages

end
-- ==== Proof.RefNet.lean ====
/-
  The reference program computes the network of `Cert.Stages`: its result's composed term of the arguments is,
  operation by operation, `Cert.Stages.net` of the thirteen argument arrays (the stages are the reference's own host
  operations grouped by layer).
-/
import proofs.«158928_j32839319945298_1_alg».proof.Proof.Gen.ReferenceIdeal.Run
import proofs.«158928_j32839319945298_1_alg».proof.Proof.Stages

set_option maxRecDepth 16384

noncomputable section

namespace Cert.RefNet

open Cert.ReferenceIdeal Cert.ReferenceIdeal.Gen Idealize.ShloMosaic Idealize.ShloMosaic.TcCoe Idealize.SL.Sem

variable {F : FTy → Type} [FloatOps F]

set_option maxHeartbeats 4000000 in
/-- The reference's result is the network of its arguments. -/
theorem res_eq_net (m : (ℓ : Loc nD τ sig) → Buf (Elt F) ℓ) (c : Dev nD) :
    Cert.ReferenceIdeal.Value.res_main_v142 m c
      = Cert.Stages.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v142
  rfl

end Cert.RefNet

end
-- ==== Proof.Fold0.lean ====
/-
  The host operations before the first kernel region, read at the three buffers every later layer uses: the edge
  sources and targets with the self-loops appended, and the edges' symmetric normalisation.
-/
import proofs.«158928_j32839319945298_1_alg».proof.Proof.Gen.KernelIdeal.Frame
import proofs.«158928_j32839319945298_1_alg».proof.Proof.Stages
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch memory read at a buffer is the memory. -/
theorem at0 (b : Ref sig .tc) : W0 m ρ c (Proc.devRef .tc b) = m ((c : Thread nD τ).loc b) := rfl

/-- After the first stretch, the source list is the edge list's first row followed by the self-loops. -/
theorem src_at1 : W1 m ρ c (Proc.devRef .tc main_v3) = Cert.Stages.srcOf (F := Ideal) (m ((c : Thread nD τ).loc main_arg1)) := by
  show StableHlo.after hostOps0 (W0 m ρ c) (Proc.devRef .tc main_v3) = _
  after_results
  rfl

/-- After the first stretch, the target list is the edge list's second row followed by the self-loops. -/
theorem dst_at1 : W1 m ρ c (Proc.devRef .tc main_v6) = Cert.Stages.dstOf (F := Ideal) (m ((c : Thread nD τ).loc main_arg1)) := by
  show StableHlo.after hostOps0 (W0 m ρ c) (Proc.devRef .tc main_v6) = _
  after_results
  rfl

set_option maxHeartbeats 4000000 in
/-- After the first stretch, the normalisation is dinv at the source times dinv at the target. -/
theorem nrm_at1 : W1 m ρ c (Proc.devRef .tc main_v26) = Cert.Stages.nrmOf (F := Ideal) (m ((c : Thread nD τ).loc main_arg1)) := by
  show StableHlo.after hostOps0 (W0 m ρ c) (Proc.devRef .tc main_v26) = _
  after_results_simp
  rfl

end Cert.KernelIdeal.Fold

end
-- ==== Proof.FoldKeep.lean ====
/-
  Buffers that later layers read again keep their contents through the regions and host stretches in between:
  the edge sources, targets and normalisation computed before the first region, and the argument arrays.
-/
import proofs.«158928_j32839319945298_1_alg».proof.Proof.Gen.KernelIdeal.Frame
import proofs.«158928_j32839319945298_1_alg».proof.Proof.Stages
import Idealize.ShloMosaic.Lib.StableHlo.Run
import Idealize.ShloMosaic.PureOps.Ideal
import proofs.«158928_j32839319945298_1_alg».proof.Proof.Fold0
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it was. -/
local macro "keepHost " ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-- The edge sources at boundary 2. -/
theorem src_at2 : W2 m ρ c (Proc.devRef .tc main_v3) = Cert.Stages.srcOf (F := Ideal) (m ((c : Thread nD τ).loc main_arg1)) :=
  calc W2 m ρ c (Proc.devRef .tc main_v3)
    _ = W1 m ρ c (Proc.devRef .tc main_v3) := W2_of_ne m ρ c main_v3 (by decide)
    _ = Cert.Stages.srcOf (F := Ideal) (m ((c : Thread nD τ).loc main_arg1)) := src_at1 m ρ c

/-- The edge targets at boundary 2. -/
theorem dst_at2 : W2 m ρ c (Proc.devRef .tc main_v6) = Cert.Stages.dstOf (F := Ideal) (m ((c : Thread nD τ).loc main_arg1)) :=
  calc W2 m ρ c (Proc.devRef .tc main_v6)
    _ = W1 m ρ c (Proc.devRef .tc main_v6) := W2_of_ne m ρ c main_v6 (by decide)
    _ = Cert.Stages.dstOf (F := Ideal) (m ((c : Thread nD τ).loc main_arg1)) := dst_at1 m ρ c

/-- The edges' normalisation at boundary 2. -/
theorem nrm_at2 : W2 m ρ c (Proc.devRef .tc main_v26) = Cert.Stages.nrmOf (F := Ideal) (m ((c : Thread nD τ).loc main_arg1)) :=
  calc W2 m ρ c (Proc.devRef .tc main_v26)
    _ = W1 m ρ c (Proc.devRef .tc main_v26) := W2_of_ne m ρ c main_v26 (by decide)
    _ = Cert.Stages.nrmOf (F := Ideal) (m ((c : Thread nD τ).loc main_arg1)) := nrm_at1 m ρ c

/-- The edge sources at boundary 6. -/
theorem src_at6 : W6 m ρ c (Proc.devRef .tc main_v3) = Cert.Stages.srcOf (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := keepHost hostOps2
    _ = W3 m ρ c (Proc.devRef .tc main_v3) := W4_of_ne m ρ c main_v3 (by decide)
    _ = W2 m ρ c (Proc.devRef .tc main_v3) := keepHost hostOps1
    _ = Cert.Stages.srcOf (F := Ideal) (m ((c : Thread nD τ).loc main_arg1)) := src_at2 m ρ c

/-- The edge targets at boundary 6. -/
theorem dst_at6 : W6 m ρ c (Proc.devRef .tc main_v6) = Cert.Stages.dstOf (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := keepHost hostOps2
    _ = W3 m ρ c (Proc.devRef .tc main_v6) := W4_of_ne m ρ c main_v6 (by decide)
    _ = W2 m ρ c (Proc.devRef .tc main_v6) := keepHost hostOps1
    _ = Cert.Stages.dstOf (F := Ideal) (m ((c : Thread nD τ).loc main_arg1)) := dst_at2 m ρ c

/-- The edges' normalisation at boundary 6. -/
theorem nrm_at6 : W6 m ρ c (Proc.devRef .tc main_v26) = Cert.Stages.nrmOf (F := Ideal) (m ((c : Thread nD τ).loc main_arg1)) :=
  calc W6 m ρ c (Proc.devRef .tc main_v26)
    _ = W5 m ρ c (Proc.devRef .tc main_v26) := W6_of_ne m ρ c main_v26 (by decide)
    _ = W4 m ρ c (Proc.devRef .tc main_v26) := keepHost hostOps2
    _ = W3 m ρ c (Proc.devRef .tc main_v26) := W4_of_ne m ρ c main_v26 (by decide)
    _ = W2 m ρ c (Proc.devRef .tc main_v26) := keepHost hostOps1
    _ = Cert.Stages.nrmOf (F := Ideal) (m ((c : Thread nD τ).loc main_arg1)) := nrm_at2 m ρ c

/-- The edge sources at boundary 10. -/
theorem src_at10 : W10 m ρ c (Proc.devRef .tc main_v3) = Cert.Stages.srcOf (F := Ideal) (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := keepHost hostOps4
    _ = W7 m ρ c (Proc.devRef .tc main_v3) := W8_of_ne m ρ c main_v3 (by decide)
    _ = W6 m ρ c (Proc.devRef .tc main_v3) := keepHost hostOps3
    _ = Cert.Stages.srcOf (F := Ideal) (m ((c : Thread nD τ).loc main_arg1)) := src_at6 m ρ c

/-- The edge targets at boundary 10. -/
theorem dst_at10 : W10 m ρ c (Proc.devRef .tc main_v6) = Cert.Stages.dstOf (F := Ideal) (m ((c : Thread nD τ).loc main_arg1)) :=
  calc W10 m ρ c (Proc.devRef .tc main_v6)
    _ = W9 m ρ c (Proc.devRef .tc main_v6) := W10_of_ne m ρ c main_v6 (by decide)
    _ = W8 m ρ c (Proc.devRef .tc main_v6) := keepHost hostOps4
    _ = W7 m ρ c (Proc.devRef .tc main_v6) := W8_of_ne m ρ c main_v6 (by decide)
    _ = W6 m ρ c (Proc.devRef .tc main_v6) := keepHost hostOps3
    _ = Cert.Stages.dstOf (F := Ideal) (m ((c : Thread nD τ).loc main_arg1)) := dst_at6 m ρ c

/-- The edges' normalisation at boundary 10. -/
theorem nrm_at10 : W10 m ρ c (Proc.devRef .tc main_v26) = Cert.Stages.nrmOf (F := Ideal) (m ((c : Thread nD τ).loc main_arg1)) :=
  calc W10 m ρ c (Proc.devRef .tc main_v26)
    _ = W9 m ρ c (Proc.devRef .tc main_v26) := W10_of_ne m ρ c main_v26 (by decide)
    _ = W8 m ρ c (Proc.devRef .tc main_v26) := keepHost hostOps4
    _ = W7 m ρ c (Proc.devRef .tc main_v26) := W8_of_ne m ρ c main_v26 (by decide)
    _ = W6 m ρ c (Proc.devRef .tc main_v26) := keepHost hostOps3
    _ = Cert.Stages.nrmOf (F := Ideal) (m ((c : Thread nD τ).loc main_arg1)) := nrm_at6 m ρ c

/-- The edge sources at boundary 14. -/
theorem src_at14 : W14 m ρ c (Proc.devRef .tc main_v3) = Cert.Stages.srcOf (F := Ideal) (m ((c : Thread nD τ).loc main_arg1)) :=
  calc W14 m ρ c (Proc.devRef .tc main_v3)
    _ = W13 m ρ c (Proc.devRef .tc main_v3) := W14_of_ne m ρ c main_v3 (by decide)
    _ = W12 m ρ c (Proc.devRef .tc main_v3) := keepHost hostOps6
    _ = W11 m ρ c (Proc.devRef .tc main_v3) := W12_of_ne m ρ c main_v3 (by decide)
    _ = W10 m ρ c (Proc.devRef .tc main_v3) := keepHost hostOps5
    _ = Cert.Stages.srcOf (F := Ideal) (m ((c : Thread nD τ).loc main_arg1)) := src_at10 m ρ c

/-- The edge targets at boundary 14. -/
theorem dst_at14 : W14 m ρ c (Proc.devRef .tc main_v6) = Cert.Stages.dstOf (F := Ideal) (m ((c : Thread nD τ).loc main_arg1)) :=
  calc W14 m ρ c (Proc.devRef .tc main_v6)
    _ = W13 m ρ c (Proc.devRef .tc main_v6) := W14_of_ne m ρ c main_v6 (by decide)
    _ = W12 m ρ c (Proc.devRef .tc main_v6) := keepHost hostOps6
    _ = W11 m ρ c (Proc.devRef .tc main_v6) := W12_of_ne m ρ c main_v6 (by decide)
    _ = W10 m ρ c (Proc.devRef .tc main_v6) := keepHost hostOps5
    _ = Cert.Stages.dstOf (F := Ideal) (m ((c : Thread nD τ).loc main_arg1)) := dst_at10 m ρ c

/-- The edges' normalisation at boundary 14. -/
theorem nrm_at14 : W14 m ρ c (Proc.devRef .tc main_v26) = Cert.Stages.nrmOf (F := Ideal) (m ((c : Thread nD τ).loc main_arg1)) :=
  calc W14 m ρ c (Proc.devRef .tc main_v26)
    _ = W13 m ρ c (Proc.devRef .tc main_v26) := W14_of_ne m ρ c main_v26 (by decide)
    _ = W12 m ρ c (Proc.devRef .tc main_v26) := keepHost hostOps6
    _ = W11 m ρ c (Proc.devRef .tc main_v26) := W12_of_ne m ρ c main_v26 (by decide)
    _ = W10 m ρ c (Proc.devRef .tc main_v26) := keepHost hostOps5
    _ = Cert.Stages.nrmOf (F := Ideal) (m ((c : Thread nD τ).loc main_arg1)) := nrm_at10 m ρ c

/-- Argument 0 at boundary 1 is as launched. -/
theorem arg0_at1 : W1 m ρ c (Proc.devRef .tc main_arg0) = m ((c : Thread nD τ).loc main_arg0) :=
  calc W1 m ρ c (Proc.devRef .tc main_arg0)
    _ = W0 m ρ c (Proc.devRef .tc main_arg0) := keepHost hostOps0
    _ = m ((c : Thread nD τ).loc main_arg0) := rfl

/-- Argument 3 at boundary 1 is as launched. -/
theorem arg3_at1 : W1 m ρ c (Proc.devRef .tc main_arg3) = m ((c : Thread nD τ).loc main_arg3) :=
  calc W1 m ρ c (Proc.devRef .tc main_arg3)
    _ = W0 m ρ c (Proc.devRef .tc main_arg3) := keepHost hostOps0
    _ = m ((c : Thread nD τ).loc main_arg3) := rfl

/-- Argument 4 at boundary 2 is as launched. -/
theorem arg4_at2 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keepHost hostOps0
    _ = m ((c : Thread nD τ).loc main_arg4) := rfl

/-- Argument 5 at boundary 2 is as launched. -/
theorem arg5_at2 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := keepHost hostOps0
    _ = m ((c : Thread nD τ).loc main_arg5) := rfl

/-- Argument 6 at boundary 2 is as launched. -/
theorem arg6_at2 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := keepHost hostOps0
    _ = m ((c : Thread nD τ).loc main_arg6) := rfl

/-- Argument 7 at boundary 2 is as launched. -/
theorem arg7_at2 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := keepHost hostOps0
    _ = m ((c : Thread nD τ).loc main_arg7) := rfl

/-- Argument 8 at boundary 2 is as launched. -/
theorem arg8_at2 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := keepHost hostOps0
    _ = m ((c : Thread nD τ).loc main_arg8) := rfl

/-- Argument 9 at boundary 4 is as launched. -/
theorem arg9_at4 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keepHost hostOps1
    _ = W1 m ρ c (Proc.devRef .tc main_arg9) := W2_of_ne m ρ c main_arg9 (by decide)
    _ = W0 m ρ c (Proc.devRef .tc main_arg9) := keepHost hostOps0
    _ = m ((c : Thread nD τ).loc main_arg9) := rfl

/-- Argument 10 at boundary 6 is as launched. -/
theorem arg10_at6 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := keepHost hostOps2
    _ = W3 m ρ c (Proc.devRef .tc main_arg10) := W4_of_ne m ρ c main_arg10 (by decide)
    _ = W2 m ρ c (Proc.devRef .tc main_arg10) := keepHost hostOps1
    _ = W1 m ρ c (Proc.devRef .tc main_arg10) := W2_of_ne m ρ c main_arg10 (by decide)
    _ = W0 m ρ c (Proc.devRef .tc main_arg10) := keepHost hostOps0
    _ = m ((c : Thread nD τ).loc main_arg10) := rfl

/-- Argument 9 at boundary 8 is as launched. -/
theorem arg9_at8 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := keepHost hostOps3
    _ = W5 m ρ c (Proc.devRef .tc main_arg9) := W6_of_ne m ρ c main_arg9 (by decide)
    _ = W4 m ρ c (Proc.devRef .tc main_arg9) := keepHost hostOps2
    _ = W3 m ρ c (Proc.devRef .tc main_arg9) := W4_of_ne m ρ c main_arg9 (by decide)
    _ = W2 m ρ c (Proc.devRef .tc main_arg9) := keepHost hostOps1
    _ = W1 m ρ c (Proc.devRef .tc main_arg9) := W2_of_ne m ρ c main_arg9 (by decide)
    _ = W0 m ρ c (Proc.devRef .tc main_arg9) := keepHost hostOps0
    _ = m ((c : Thread nD τ).loc main_arg9) := rfl

/-- Argument 9 at boundary 12 is as launched. -/
theorem arg9_at12 : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := keepHost hostOps5
    _ = W9 m ρ c (Proc.devRef .tc main_arg9) := W10_of_ne m ρ c main_arg9 (by decide)
    _ = W8 m ρ c (Proc.devRef .tc main_arg9) := keepHost hostOps4
    _ = W7 m ρ c (Proc.devRef .tc main_arg9) := W8_of_ne m ρ c main_arg9 (by decide)
    _ = W6 m ρ c (Proc.devRef .tc main_arg9) := keepHost hostOps3
    _ = W5 m ρ c (Proc.devRef .tc main_arg9) := W6_of_ne m ρ c main_arg9 (by decide)
    _ = W4 m ρ c (Proc.devRef .tc main_arg9) := keepHost hostOps2
    _ = W3 m ρ c (Proc.devRef .tc main_arg9) := W4_of_ne m ρ c main_arg9 (by decide)
    _ = W2 m ρ c (Proc.devRef .tc main_arg9) := keepHost hostOps1
    _ = W1 m ρ c (Proc.devRef .tc main_arg9) := W2_of_ne m ρ c main_arg9 (by decide)
    _ = W0 m ρ c (Proc.devRef .tc main_arg9) := keepHost hostOps0
    _ = m ((c : Thread nD τ).loc main_arg9) := rfl

/-- Argument 10 at boundary 10 is as launched. -/
theorem arg10_at10 : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := keepHost hostOps4
    _ = W7 m ρ c (Proc.devRef .tc main_arg10) := W8_of_ne m ρ c main_arg10 (by decide)
    _ = W6 m ρ c (Proc.devRef .tc main_arg10) := keepHost hostOps3
    _ = W5 m ρ c (Proc.devRef .tc main_arg10) := W6_of_ne m ρ c main_arg10 (by decide)
    _ = W4 m ρ c (Proc.devRef .tc main_arg10) := keepHost hostOps2
    _ = W3 m ρ c (Proc.devRef .tc main_arg10) := W4_of_ne m ρ c main_arg10 (by decide)
    _ = W2 m ρ c (Proc.devRef .tc main_arg10) := keepHost hostOps1
    _ = W1 m ρ c (Proc.devRef .tc main_arg10) := W2_of_ne m ρ c main_arg10 (by decide)
    _ = W0 m ρ c (Proc.devRef .tc main_arg10) := keepHost hostOps0
    _ = m ((c : Thread nD τ).loc main_arg10) := rfl

/-- Argument 10 at boundary 14 is as launched. -/
theorem arg10_at14 : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := keepHost hostOps6
    _ = W11 m ρ c (Proc.devRef .tc main_arg10) := W12_of_ne m ρ c main_arg10 (by decide)
    _ = W10 m ρ c (Proc.devRef .tc main_arg10) := keepHost hostOps5
    _ = W9 m ρ c (Proc.devRef .tc main_arg10) := W10_of_ne m ρ c main_arg10 (by decide)
    _ = W8 m ρ c (Proc.devRef .tc main_arg10) := keepHost hostOps4
    _ = W7 m ρ c (Proc.devRef .tc main_arg10) := W8_of_ne m ρ c main_arg10 (by decide)
    _ = W6 m ρ c (Proc.devRef .tc main_arg10) := keepHost hostOps3
    _ = W5 m ρ c (Proc.devRef .tc main_arg10) := W6_of_ne m ρ c main_arg10 (by decide)
    _ = W4 m ρ c (Proc.devRef .tc main_arg10) := keepHost hostOps2
    _ = W3 m ρ c (Proc.devRef .tc main_arg10) := W4_of_ne m ρ c main_arg10 (by decide)
    _ = W2 m ρ c (Proc.devRef .tc main_arg10) := keepHost hostOps1
    _ = W1 m ρ c (Proc.devRef .tc main_arg10) := W2_of_ne m ρ c main_arg10 (by decide)
    _ = W0 m ρ c (Proc.devRef .tc main_arg10) := keepHost hostOps0
    _ = m ((c : Thread nD τ).loc main_arg10) := rfl

/-- Argument 2 at boundary 16 is as launched. -/
theorem arg2_at16 : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := keepHost hostOps7
    _ = W13 m ρ c (Proc.devRef .tc main_arg2) := W14_of_ne m ρ c main_arg2 (by decide)
    _ = W12 m ρ c (Proc.devRef .tc main_arg2) := keepHost hostOps6
    _ = W11 m ρ c (Proc.devRef .tc main_arg2) := W12_of_ne m ρ c main_arg2 (by decide)
    _ = W10 m ρ c (Proc.devRef .tc main_arg2) := keepHost hostOps5
    _ = W9 m ρ c (Proc.devRef .tc main_arg2) := W10_of_ne m ρ c main_arg2 (by decide)
    _ = W8 m ρ c (Proc.devRef .tc main_arg2) := keepHost hostOps4
    _ = W7 m ρ c (Proc.devRef .tc main_arg2) := W8_of_ne m ρ c main_arg2 (by decide)
    _ = W6 m ρ c (Proc.devRef .tc main_arg2) := keepHost hostOps3
    _ = W5 m ρ c (Proc.devRef .tc main_arg2) := W6_of_ne m ρ c main_arg2 (by decide)
    _ = W4 m ρ c (Proc.devRef .tc main_arg2) := keepHost hostOps2
    _ = W3 m ρ c (Proc.devRef .tc main_arg2) := W4_of_ne m ρ c main_arg2 (by decide)
    _ = W2 m ρ c (Proc.devRef .tc main_arg2) := keepHost hostOps1
    _ = W1 m ρ c (Proc.devRef .tc main_arg2) := W2_of_ne m ρ c main_arg2 (by decide)
    _ = W0 m ρ c (Proc.devRef .tc main_arg2) := keepHost hostOps0
    _ = m ((c : Thread nD τ).loc main_arg2) := rfl

/-- Argument 11 at boundary 16 is as launched. -/
theorem arg11_at16 : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := keepHost hostOps7
    _ = W13 m ρ c (Proc.devRef .tc main_arg11) := W14_of_ne m ρ c main_arg11 (by decide)
    _ = W12 m ρ c (Proc.devRef .tc main_arg11) := keepHost hostOps6
    _ = W11 m ρ c (Proc.devRef .tc main_arg11) := W12_of_ne m ρ c main_arg11 (by decide)
    _ = W10 m ρ c (Proc.devRef .tc main_arg11) := keepHost hostOps5
    _ = W9 m ρ c (Proc.devRef .tc main_arg11) := W10_of_ne m ρ c main_arg11 (by decide)
    _ = W8 m ρ c (Proc.devRef .tc main_arg11) := keepHost hostOps4
    _ = W7 m ρ c (Proc.devRef .tc main_arg11) := W8_of_ne m ρ c main_arg11 (by decide)
    _ = W6 m ρ c (Proc.devRef .tc main_arg11) := keepHost hostOps3
    _ = W5 m ρ c (Proc.devRef .tc main_arg11) := W6_of_ne m ρ c main_arg11 (by decide)
    _ = W4 m ρ c (Proc.devRef .tc main_arg11) := keepHost hostOps2
    _ = W3 m ρ c (Proc.devRef .tc main_arg11) := W4_of_ne m ρ c main_arg11 (by decide)
    _ = W2 m ρ c (Proc.devRef .tc main_arg11) := keepHost hostOps1
    _ = W1 m ρ c (Proc.devRef .tc main_arg11) := W2_of_ne m ρ c main_arg11 (by decide)
    _ = W0 m ρ c (Proc.devRef .tc main_arg11) := keepHost hostOps0
    _ = m ((c : Thread nD τ).loc main_arg11) := rfl

/-- Argument 12 at boundary 16 is as launched. -/
theorem arg12_at16 : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := keepHost hostOps7
    _ = W13 m ρ c (Proc.devRef .tc main_arg12) := W14_of_ne m ρ c main_arg12 (by decide)
    _ = W12 m ρ c (Proc.devRef .tc main_arg12) := keepHost hostOps6
    _ = W11 m ρ c (Proc.devRef .tc main_arg12) := W12_of_ne m ρ c main_arg12 (by decide)
    _ = W10 m ρ c (Proc.devRef .tc main_arg12) := keepHost hostOps5
    _ = W9 m ρ c (Proc.devRef .tc main_arg12) := W10_of_ne m ρ c main_arg12 (by decide)
    _ = W8 m ρ c (Proc.devRef .tc main_arg12) := keepHost hostOps4
    _ = W7 m ρ c (Proc.devRef .tc main_arg12) := W8_of_ne m ρ c main_arg12 (by decide)
    _ = W6 m ρ c (Proc.devRef .tc main_arg12) := keepHost hostOps3
    _ = W5 m ρ c (Proc.devRef .tc main_arg12) := W6_of_ne m ρ c main_arg12 (by decide)
    _ = W4 m ρ c (Proc.devRef .tc main_arg12) := keepHost hostOps2
    _ = W3 m ρ c (Proc.devRef .tc main_arg12) := W4_of_ne m ρ c main_arg12 (by decide)
    _ = W2 m ρ c (Proc.devRef .tc main_arg12) := keepHost hostOps1
    _ = W1 m ρ c (Proc.devRef .tc main_arg12) := W2_of_ne m ρ c main_arg12 (by decide)
    _ = W0 m ρ c (Proc.devRef .tc main_arg12) := keepHost hostOps0
    _ = m ((c : Thread nD τ).loc main_arg12) := rfl

end Cert.KernelIdeal.Fold

end
-- ==== Proof.FoldStretch.lean ====
/-
  The host stretches between the regions, read at the buffers the next region takes: the aggregation of a layer's
  transformed features over the edges, the weight and bias slices, the vectors reshaped to rows, the pooling.
-/
import proofs.«158928_j32839319945298_1_alg».proof.Proof.Gen.KernelIdeal.Frame
import proofs.«158928_j32839319945298_1_alg».proof.Proof.Stages
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- Between the first matmul and the batch-norm region: the first layer's aggregation. -/
theorem agg_at3 : W3 m ρ c (Proc.devRef .tc main_v41)
    = Cert.Stages.agg (F := Ideal) (W2 m ρ c (Proc.devRef .tc main_v3)) (W2 m ρ c (Proc.devRef .tc main_v6))
        (W2 m ρ c (Proc.devRef .tc main_v26)) (W2 m ρ c (Proc.devRef .tc main_v27)) := by
  show StableHlo.after hostOps1 (W2 m ρ c) (Proc.devRef .tc main_v41) = _
  after_results_simp
  rfl

set_option maxHeartbeats 4000000 in
/-- Argument 4, a vector of 256, as a row [1, 256]. -/
theorem row4_at3 : W3 m ρ c (Proc.devRef .tc main_v42) = shapeCast _ (W2 m ρ c (Proc.devRef .tc main_arg4)) shapeCasts_S256_S1x256 := by
  show StableHlo.after hostOps1 (W2 m ρ c) (Proc.devRef .tc main_v42) = _
  after_results_simp
  rfl

set_option maxHeartbeats 4000000 in
/-- Argument 5, a vector of 256, as a row [1, 256]. -/
theorem row5_at3 : W3 m ρ c (Proc.devRef .tc main_v43) = shapeCast _ (W2 m ρ c (Proc.devRef .tc main_arg5)) shapeCasts_S256_S1x256 := by
  show StableHlo.after hostOps1 (W2 m ρ c) (Proc.devRef .tc main_v43) = _
  after_results_simp
  rfl

set_option maxHeartbeats 4000000 in
/-- Argument 6, a vector of 256, as a row [1, 256]. -/
theorem row6_at3 : W3 m ρ c (Proc.devRef .tc main_v44) = shapeCast _ (W2 m ρ c (Proc.devRef .tc main_arg6)) shapeCasts_S256_S1x256 := by
  show StableHlo.after hostOps1 (W2 m ρ c) (Proc.devRef .tc main_v44) = _
  after_results_simp
  rfl

set_option maxHeartbeats 4000000 in
/-- Argument 7, a vector of 256, as a row [1, 256]. -/
theorem row7_at3 : W3 m ρ c (Proc.devRef .tc main_v45) = shapeCast _ (W2 m ρ c (Proc.devRef .tc main_arg7)) shapeCasts_S256_S1x256 := by
  show StableHlo.after hostOps1 (W2 m ρ c) (Proc.devRef .tc main_v45) = _
  after_results_simp
  rfl

set_option maxHeartbeats 4000000 in
/-- Argument 8, a vector of 256, as a row [1, 256]. -/
theorem row8_at3 : W3 m ρ c (Proc.devRef .tc main_v46) = shapeCast _ (W2 m ρ c (Proc.devRef .tc main_arg8)) shapeCasts_S256_S1x256 := by
  show StableHlo.after hostOps1 (W2 m ρ c) (Proc.devRef .tc main_v46) = _
  after_results_simp
  rfl

set_option maxHeartbeats 4000000 in
/-- The second layer's weight matrix. -/
theorem w0_at5 : W5 m ρ c (Proc.devRef .tc main_v49) = Cert.Stages.wsl0 (F := Ideal) (W4 m ρ c (Proc.devRef .tc main_arg9)) := by
  show StableHlo.after hostOps2 (W4 m ρ c) (Proc.devRef .tc main_v49) = _
  after_results_simp
  rfl

set_option maxHeartbeats 4000000 in
/-- The second layer's aggregation. -/
theorem agg_at7 : W7 m ρ c (Proc.devRef .tc main_v64)
    = Cert.Stages.agg (F := Ideal) (W6 m ρ c (Proc.devRef .tc main_v3)) (W6 m ρ c (Proc.devRef .tc main_v6))
        (W6 m ρ c (Proc.devRef .tc main_v26)) (W6 m ρ c (Proc.devRef .tc main_v50)) := by
  show StableHlo.after hostOps3 (W6 m ρ c) (Proc.devRef .tc main_v64) = _
  after_results_simp
  rfl

set_option maxHeartbeats 4000000 in
/-- The second layer's bias as a row [1, 256]. -/
theorem bias_at7 : W7 m ρ c (Proc.devRef .tc main_v67) = shapeCast _ (Cert.Stages.bsl0 (F := Ideal) (W6 m ρ c (Proc.devRef .tc main_arg10))) shapeCasts_S256_S1x256 := by
  show StableHlo.after hostOps3 (W6 m ρ c) (Proc.devRef .tc main_v67) = _
  after_results_simp
  rfl

set_option maxHeartbeats 4000000 in
/-- The third layer's weight matrix. -/
theorem w1_at9 : W9 m ρ c (Proc.devRef .tc main_v70) = Cert.Stages.wsl1 (F := Ideal) (W8 m ρ c (Proc.devRef .tc main_arg9)) := by
  show StableHlo.after hostOps4 (W8 m ρ c) (Proc.devRef .tc main_v70) = _
  after_results_simp
  rfl

set_option maxHeartbeats 4000000 in
/-- The third layer's aggregation. -/
theorem agg_at11 : W11 m ρ c (Proc.devRef .tc main_v85)
    = Cert.Stages.agg (F := Ideal) (W10 m ρ c (Proc.devRef .tc main_v3)) (W10 m ρ c (Proc.devRef .tc main_v6))
        (W10 m ρ c (Proc.devRef .tc main_v26)) (W10 m ρ c (Proc.devRef .tc main_v71)) := by
  show StableHlo.after hostOps5 (W10 m ρ c) (Proc.devRef .tc main_v85) = _
  after_results_simp
  rfl

set_option maxHeartbeats 4000000 in
/-- The third layer's bias as a row [1, 256]. -/
theorem bias_at11 : W11 m ρ c (Proc.devRef .tc main_v88) = shapeCast _ (Cert.Stages.bsl1 (F := Ideal) (W10 m ρ c (Proc.devRef .tc main_arg10))) shapeCasts_S256_S1x256 := by
  show StableHlo.after hostOps5 (W10 m ρ c) (Proc.devRef .tc main_v88) = _
  after_results_simp
  rfl

set_option maxHeartbeats 4000000 in
/-- The fourth layer's weight matrix. -/
theorem w2_at13 : W13 m ρ c (Proc.devRef .tc main_v91) = Cert.Stages.wsl2 (F := Ideal) (W12 m ρ c (Proc.devRef .tc main_arg9)) := by
  show StableHlo.after hostOps6 (W12 m ρ c) (Proc.devRef .tc main_v91) = _
  after_results_simp
  rfl

set_option maxHeartbeats 4000000 in
/-- The fourth layer's aggregation. -/
theorem agg_at15 : W15 m ρ c (Proc.devRef .tc main_v106)
    = Cert.Stages.agg (F := Ideal) (W14 m ρ c (Proc.devRef .tc main_v3)) (W14 m ρ c (Proc.devRef .tc main_v6))
        (W14 m ρ c (Proc.devRef .tc main_v26)) (W14 m ρ c (Proc.devRef .tc main_v92)) := by
  show StableHlo.after hostOps7 (W14 m ρ c) (Proc.devRef .tc main_v106) = _
  after_results_simp
  rfl

set_option maxHeartbeats 4000000 in
/-- The fourth layer's bias as a row [1, 256]. -/
theorem bias_at15 : W15 m ρ c (Proc.devRef .tc main_v109) = shapeCast _ (Cert.Stages.bsl2 (F := Ideal) (W14 m ρ c (Proc.devRef .tc main_arg10))) shapeCasts_S256_S1x256 := by
  show StableHlo.after hostOps7 (W14 m ρ c) (Proc.devRef .tc main_v109) = _
  after_results_simp
  rfl

set_option maxHeartbeats 4000000 in
/-- The per-graph mean of the last layer's rows. -/
theorem pool_at17 : W17 m ρ c (Proc.devRef .tc main_v122) = Cert.Stages.pool (F := Ideal) (W16 m ρ c (Proc.devRef .tc main_arg2)) (W16 m ρ c (Proc.devRef .tc main_v110)) := by
  show StableHlo.after hostOps8 (W16 m ρ c) (Proc.devRef .tc main_v122) = _
  after_results_simp
  rfl

set_option maxHeartbeats 4000000 in
/-- The classifier's bias as a row [1, 10]. -/
theorem b2_at17 : W17 m ρ c (Proc.devRef .tc main_v123) = shapeCast _ (W16 m ρ c (Proc.devRef .tc main_arg12)) shapeCasts_S10_S1x10 := by
  show StableHlo.after hostOps8 (W16 m ρ c) (Proc.devRef .tc main_v123) = _
  after_results_simp
  rfl

end Cert.KernelIdeal.Fold

end
-- ==== Proof.Layers.lean ====
/-
  The network's layer values as functions of the launch memory: each layer's transformed features, their aggregation
  over the edges, the layer's output after bias (and batch normalisation) and rectifier; then the pooled rows and the
  class scores. Their composition is `Cert.Stages.net` of the thirteen argument arrays.
-/
import proofs.«158928_j32839319945298_1_alg».proof.KernelIdeal
import proofs.«158928_j32839319945298_1_alg».proof.Proof.Stages
import Idealize.ShloMosaic.PureOps.Ideal

set_option maxRecDepth 16384

noncomputable section

namespace Cert.KernelIdeal.Fold

open Cert.KernelIdeal Idealize.ShloMosaic Idealize.ShloMosaic.TcCoe Idealize.SL.Sem

variable (m : (ℓ : Loc nD τ sig) → Buf (Elt Ideal) ℓ) (c : Dev nD)

/-- The edge sources, targets and normalisation. -/
def src := Cert.Stages.srcOf (F := Ideal) (m ((c : Thread nD τ).loc main_arg1))
def dst := Cert.Stages.dstOf (F := Ideal) (m ((c : Thread nD τ).loc main_arg1))
def nrm := Cert.Stages.nrmOf (F := Ideal) (m ((c : Thread nD τ).loc main_arg1))

/-- Layer 1: x · W1, aggregated, then bias, batch normalisation and rectifier. -/
def y1 := Cert.Stages.mm128 (F := Ideal) (m ((c : Thread nD τ).loc main_arg0)) (m ((c : Thread nD τ).loc main_arg3))
def g1 := Cert.Stages.agg (F := Ideal) (src m c) (dst m c) (nrm m c) (y1 m c)
def h1 := Cert.Stages.bnRelu (F := Ideal) (g1 m c) (m ((c : Thread nD τ).loc main_arg4)) (m ((c : Thread nD τ).loc main_arg5)) (m ((c : Thread nD τ).loc main_arg6)) (m ((c : Thread nD τ).loc main_arg7)) (m ((c : Thread nD τ).loc main_arg8))

/-- Layer 2. -/
def y2 := Cert.Stages.mm256 (F := Ideal) (h1 m c) (Cert.Stages.wsl0 (F := Ideal) (m ((c : Thread nD τ).loc main_arg9)))
def g2 := Cert.Stages.agg (F := Ideal) (src m c) (dst m c) (nrm m c) (y2 m c)
def h2 := Cert.Stages.biasRelu (F := Ideal) (g2 m c) (Cert.Stages.bsl0 (F := Ideal) (m ((c : Thread nD τ).loc main_arg10)))

/-- Layer 3. -/
def y3 := Cert.Stages.mm256 (F := Ideal) (h2 m c) (Cert.Stages.wsl1 (F := Ideal) (m ((c : Thread nD τ).loc main_arg9)))
def g3 := Cert.Stages.agg (F := Ideal) (src m c) (dst m c) (nrm m c) (y3 m c)
def h3 := Cert.Stages.biasRelu (F := Ideal) (g3 m c) (Cert.Stages.bsl1 (F := Ideal) (m ((c : Thread nD τ).loc main_arg10)))

/-- Layer 4. -/
def y4 := Cert.Stages.mm256 (F := Ideal) (h3 m c) (Cert.Stages.wsl2 (F := Ideal) (m ((c : Thread nD τ).loc main_arg9)))
def g4 := Cert.Stages.agg (F := Ideal) (src m c) (dst m c) (nrm m c) (y4 m c)
def h4 := Cert.Stages.biasRelu (F := Ideal) (g4 m c) (Cert.Stages.bsl2 (F := Ideal) (m ((c : Thread nD τ).loc main_arg10)))

/-- The per-graph means and the class scores. -/
def pooled := Cert.Stages.pool (F := Ideal) (m ((c : Thread nD τ).loc main_arg2)) (h4 m c)
def scores := Cert.Stages.cls (F := Ideal) (pooled m c) (m ((c : Thread nD τ).loc main_arg11)) (m ((c : Thread nD τ).loc main_arg12))

/-- The layers compose to the network. -/
theorem scores_eq_net : scores m c = Cert.Stages.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

end Cert.KernelIdeal.Fold

end
-- ==== Proof.MatmulAt.lean ====
/-
  The matrix products read at an index: the bodies' block products and the whole-matrix feature transforms.

  Each of the four feature transforms multiplies a block of 10000 rows of the left matrix by the whole weight
  matrix. Over the extended reals the narrowing of the operands and of the product is the identity and the
  accumulator starts at zero, so element (r, q) of the block's product is the sum over k of x(r, k) · w(k, q).
-/
import proofs.«158928_j32839319945298_1_alg».proof.Proof.Gen.KernelIdeal.Skeleton
import proofs.«158928_j32839319945298_1_alg».proof.Proof.Gen.ReferenceIdeal.Read
import proofs.«158928_j32839319945298_1_alg».proof.Proof.Stages
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic

/-! ## Contraction over 128 columns: [10000, 128] × [128, 256] -/

/-- The left factor of term k of element j: row (j 0), column k. -/
abbrev leftAt128 (j : S10000x256.Idx) (k : Fin 128) : S10000x128.Idx := fun a => match a with
  | ⟨0, _⟩ => ⟨(j 0).val, (j 0).isLt⟩
  | ⟨1, _⟩ => ⟨k.val, k.isLt⟩

/-- The right factor of term k of element j: row k, column (j 1). -/
abbrev rightAt128 (j : S10000x256.Idx) (k : Fin 128) : S128x256.Idx := fun a => match a with
  | ⟨0, _⟩ => ⟨k.val, k.isLt⟩
  | ⟨1, _⟩ => ⟨(j 1).val, (j 1).isLt⟩

theorem lhs128_0 (j : S10000x256.Idx) (q : dot_S10000x128_S128x256_S10000x256_1_0_0_1_n_n.contr.Idx) :
    (dot_S10000x128_S128x256_S10000x256_1_0_0_1_n_n.lhsIdx j q 0).val = (j 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem lhs128_1 (j : S10000x256.Idx) (q : dot_S10000x128_S128x256_S10000x256_1_0_0_1_n_n.contr.Idx) :
    (dot_S10000x128_S128x256_S10000x256_1_0_0_1_n_n.lhsIdx j q 1).val = (q ⟨0, by decide⟩).val :=
  dot_S10000x128_S128x256_S10000x256_1_0_0_1_n_n.lhsIdx_val_of_single rfl j q
theorem rhs128_0 (j : S10000x256.Idx) (q : dot_S10000x128_S128x256_S10000x256_1_0_0_1_n_n.contr.Idx) :
    (dot_S10000x128_S128x256_S10000x256_1_0_0_1_n_n.rhsIdx j q 0).val = (q ⟨0, by decide⟩).val :=
  dot_S10000x128_S128x256_S10000x256_1_0_0_1_n_n.rhsIdx_val_of_single rfl j q
theorem rhs128_1 (j : S10000x256.Idx) (q : dot_S10000x128_S128x256_S10000x256_1_0_0_1_n_n.contr.Idx) :
    (dot_S10000x128_S128x256_S10000x256_1_0_0_1_n_n.rhsIdx j q 1).val = (j 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The product of a block with the weights, from a zero accumulator, at element j. -/
theorem product128_apply (x : FVec Ideal S10000x128 .bf16) (w : FVec Ideal S128x256 .bf16) (j : S10000x256.Idx) :
    FloatOps.matmul dot_S10000x128_S128x256_S10000x256_1_0_0_1_n_n none x w (constant S10000x256 .f32 0x00000000#32) j
      = ∑ k : Fin 128, x (leftAt128 j k) * w (rightAt128 j k) := by
  rw [Ideal.matmul_constant_zero_apply, ← Equiv.sum_comp (ValueIdx.contrEquiv1 dot_S10000x128_S128x256_S10000x256_1_0_0_1_n_n 128 rfl rfl).symm]
  refine Finset.sum_congr rfl fun k _ => ?_
  have hk := ValueIdx.contrEquiv1_symm_val dot_S10000x128_S128x256_S10000x256_1_0_0_1_n_n 128 rfl rfl k
  have el : dot_S10000x128_S128x256_S10000x256_1_0_0_1_n_n.lhsIdx j ((ValueIdx.contrEquiv1 dot_S10000x128_S128x256_S10000x256_1_0_0_1_n_n 128 rfl rfl).symm k) = leftAt128 j k := funext fun a => Fin.ext (by
    match a with
    | ⟨0, _⟩ => exact lhs128_0 _ _
    | ⟨1, _⟩ => exact (lhs128_1 _ _).trans hk)
  have er : dot_S10000x128_S128x256_S10000x256_1_0_0_1_n_n.rhsIdx j ((ValueIdx.contrEquiv1 dot_S10000x128_S128x256_S10000x256_1_0_0_1_n_n 128 rfl rfl).symm k) = rightAt128 j k := funext fun a => Fin.ext (by
    match a with
    | ⟨0, _⟩ => exact (rhs128_0 _ _).trans hk
    | ⟨1, _⟩ => exact rhs128_1 _ _)
  rw [el, er]

/-- Region 0's body: narrow both operands, multiply into zero, narrow the product. -/
theorem pay0_apply (x0 : Vec Ideal S10000x128 .f32) (x1 : Vec Ideal S128x256 .f32) (j : S10000x256.Idx) :
    k0_pay1 (F := Ideal) x0 x1 j = ∑ k : Fin 128, x0 (leftAt128 j k) * x1 (rightAt128 j k) :=
  product128_apply x0 x1 j

/-! ## Contraction over 256 columns: [10000, 256] × [256, 256] -/

/-- The left factor of term k of element j: row (j 0), column k. -/
abbrev leftAt256 (j : S10000x256.Idx) (k : Fin 256) : S10000x256.Idx := fun a => match a with
  | ⟨0, _⟩ => ⟨(j 0).val, (j 0).isLt⟩
  | ⟨1, _⟩ => ⟨k.val, k.isLt⟩

/-- The right factor of term k of element j: row k, column (j 1). -/
abbrev rightAt256 (j : S10000x256.Idx) (k : Fin 256) : S256x256.Idx := fun a => match a with
  | ⟨0, _⟩ => ⟨k.val, k.isLt⟩
  | ⟨1, _⟩ => ⟨(j 1).val, (j 1).isLt⟩

theorem lhs256_0 (j : S10000x256.Idx) (q : dot_S10000x256_S256x256_S10000x256_1_0_0_1_n_n.contr.Idx) :
    (dot_S10000x256_S256x256_S10000x256_1_0_0_1_n_n.lhsIdx j q 0).val = (j 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs256_1 (j : S10000x256.Idx) (q : dot_S10000x256_S256x256_S10000x256_1_0_0_1_n_n.contr.Idx) :
    (dot_S10000x256_S256x256_S10000x256_1_0_0_1_n_n.lhsIdx j q 1).val = (q ⟨0, by decide⟩).val :=
  dot_S10000x256_S256x256_S10000x256_1_0_0_1_n_n.lhsIdx_val_of_single rfl j q
theorem rhs256_0 (j : S10000x256.Idx) (q : dot_S10000x256_S256x256_S10000x256_1_0_0_1_n_n.contr.Idx) :
    (dot_S10000x256_S256x256_S10000x256_1_0_0_1_n_n.rhsIdx j q 0).val = (q ⟨0, by decide⟩).val :=
  dot_S10000x256_S256x256_S10000x256_1_0_0_1_n_n.rhsIdx_val_of_single rfl j q
theorem rhs256_1 (j : S10000x256.Idx) (q : dot_S10000x256_S256x256_S10000x256_1_0_0_1_n_n.contr.Idx) :
    (dot_S10000x256_S256x256_S10000x256_1_0_0_1_n_n.rhsIdx j q 1).val = (j 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The product of a block with the weights, from a zero accumulator, at element j. -/
theorem product256_apply (x : FVec Ideal S10000x256 .bf16) (w : FVec Ideal S256x256 .bf16) (j : S10000x256.Idx) :
    FloatOps.matmul dot_S10000x256_S256x256_S10000x256_1_0_0_1_n_n none x w (constant S10000x256 .f32 0x00000000#32) j
      = ∑ k : Fin 256, x (leftAt256 j k) * w (rightAt256 j k) := by
  rw [Ideal.matmul_constant_zero_apply, ← Equiv.sum_comp (ValueIdx.contrEquiv1 dot_S10000x256_S256x256_S10000x256_1_0_0_1_n_n 256 rfl rfl).symm]
  refine Finset.sum_congr rfl fun k _ => ?_
  have hk := ValueIdx.contrEquiv1_symm_val dot_S10000x256_S256x256_S10000x256_1_0_0_1_n_n 256 rfl rfl k
  have el : dot_S10000x256_S256x256_S10000x256_1_0_0_1_n_n.lhsIdx j ((ValueIdx.contrEquiv1 dot_S10000x256_S256x256_S10000x256_1_0_0_1_n_n 256 rfl rfl).symm k) = leftAt256 j k := funext fun a => Fin.ext (by
    match a with
    | ⟨0, _⟩ => exact lhs256_0 _ _
    | ⟨1, _⟩ => exact (lhs256_1 _ _).trans hk)
  have er : dot_S10000x256_S256x256_S10000x256_1_0_0_1_n_n.rhsIdx j ((ValueIdx.contrEquiv1 dot_S10000x256_S256x256_S10000x256_1_0_0_1_n_n 256 rfl rfl).symm k) = rightAt256 j k := funext fun a => Fin.ext (by
    match a with
    | ⟨0, _⟩ => exact (rhs256_0 _ _).trans hk
    | ⟨1, _⟩ => exact rhs256_1 _ _)
  rw [el, er]

/-- Regions 2, 4, 6's bodies: each operand cast to its own shape, the weights narrowed, multiplied into zero, the
    product narrowed. -/
theorem pay2_apply (x0 : Vec Ideal S10000x256 .bf16) (x1 : Vec Ideal S256x256 .f32) (j : S10000x256.Idx) :
    k2_pay1 (F := Ideal) x0 x1 j = ∑ k : Fin 256, x0 (leftAt256 j k) * x1 (rightAt256 j k) := by
  unfold k2_pay1
  rw [shapeCast_self, shapeCast_self]
  exact product256_apply x0 x1 j

theorem pay4_apply (x0 : Vec Ideal S10000x256 .bf16) (x1 : Vec Ideal S256x256 .f32) (j : S10000x256.Idx) :
    k4_pay1 (F := Ideal) x0 x1 j = ∑ k : Fin 256, x0 (leftAt256 j k) * x1 (rightAt256 j k) := by
  unfold k4_pay1
  rw [shapeCast_self, shapeCast_self]
  exact product256_apply x0 x1 j

theorem pay6_apply (x0 : Vec Ideal S10000x256 .bf16) (x1 : Vec Ideal S256x256 .f32) (j : S10000x256.Idx) :
    k6_pay1 (F := Ideal) x0 x1 j = ∑ k : Fin 256, x0 (leftAt256 j k) * x1 (rightAt256 j k) := by
  unfold k6_pay1
  rw [shapeCast_self, shapeCast_self]
  exact product256_apply x0 x1 j

/-! ## The feature transforms of the whole matrix at an index -/

/-- Both offsets of a block that is its whole staging buffer are zero. -/
theorem origin2 : (![0, 0] : Fin 2 → Nat) = fun _ => 0 := funext fun a => by fin_cases a <;> rfl

/-- x · W1 at element i: the sum over the 128 columns of x. -/
theorem mm128_apply (x : (⟨Cert.ReferenceIdeal.S50000x128, .f32⟩ : BufTy).Contents (Elt Ideal))
    (w : (⟨Cert.ReferenceIdeal.S128x256, .f32⟩ : BufTy).Contents (Elt Ideal)) (i : Cert.ReferenceIdeal.S50000x256.Idx) :
    Cert.Stages.mm128 (F := Ideal) x w i
      = ∑ k : Fin 128, x (Cert.ReferenceIdeal.Read.lidx_main_v27 i k) * w (Cert.ReferenceIdeal.Read.ridx_main_v27 i k) :=
  Cert.ReferenceIdeal.Read.val_main_v27_apply x w i

/-- h · W at element i: the sum over the 256 columns of h. -/
theorem mm256_apply (x : (⟨Cert.ReferenceIdeal.S50000x256, .f32⟩ : BufTy).Contents (Elt Ideal))
    (w : (⟨Cert.ReferenceIdeal.S256x256, .f32⟩ : BufTy).Contents (Elt Ideal)) (i : Cert.ReferenceIdeal.S50000x256.Idx) :
    Cert.Stages.mm256 (F := Ideal) x w i
      = ∑ k : Fin 256, x (Cert.ReferenceIdeal.Read.lidx_main_v64 i k) * w (Cert.ReferenceIdeal.Read.ridx_main_v64 i k) := by
  unfold Cert.Stages.mm256
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx i ((ValueIdx.contrEquiv1 Cert.ReferenceIdeal.dot_S50000x256_S256x256_S50000x256_1_0_0_1_n_n 256 rfl rfl).symm k) = Cert.ReferenceIdeal.Read.lidx_main_v64 i k := funext fun a => Fin.ext (by
    match a with
    | ⟨0, _⟩ => exact Cert.ReferenceIdeal.Read.lhs_main_v64_0 _ _
    | ⟨1, _⟩ => exact (Cert.ReferenceIdeal.Read.lhs_main_v64_1 _ _).trans hk)
  have er : Cert.ReferenceIdeal.dot_S50000x256_S256x256_S50000x256_1_0_0_1_n_n.rhsIdx i ((ValueIdx.contrEquiv1 Cert.ReferenceIdeal.dot_S50000x256_S256x256_S50000x256_1_0_0_1_n_n 256 rfl rfl).symm k) = Cert.ReferenceIdeal.Read.ridx_main_v64 i k := funext fun a => Fin.ext (by
    match a with
    | ⟨0, _⟩ => exact (Cert.ReferenceIdeal.Read.rhs_main_v64_0 _ _).trans hk
    | ⟨1, _⟩ => exact Cert.ReferenceIdeal.Read.rhs_main_v64_1 _ _)
  rw [el, er]

end Cert.KernelIdeal.RegionValue

end
-- ==== Proof.Region0.lean ====
/-
  Region 0: the feature transform of the first layer, five blocks of 10000 rows.

  Point t multiplies rows 10000·t … 10000·t + 9999 of the left matrix by the whole weight matrix and writes
  the product to the same rows of the output; the five blocks tile the 50000 rows, so the output array ends
  holding the product of the whole left matrix with the weights.
-/
import proofs.«158928_j32839319945298_1_alg».proof.Proof.Gen.KernelIdeal.Frame
import proofs.«158928_j32839319945298_1_alg».proof.Proof.Stages
import proofs.«158928_j32839319945298_1_alg».proof.Proof.MatmulAt
import Idealize.ShloMosaic.Lib.Pipeline.Value

noncomputable section

namespace Cert.KernelIdeal.RegionValue

open Cert.KernelIdeal Cert.KernelIdeal.Gen Idealize.ShloMosaic Idealize.ShloMosaic.TcCoe
open Idealize.ShloMosaic.Pipeline (Dat Cfg Window)

section Region0

variable (V : (c : Dev nD) → (b : Ref sig .tc) → Buf (Elt Ideal) ((c : Thread nD τ).loc b))

/-- The index maps over the five points: the left block and the output block are the same block of rows, block
    t; the weights' block and every column block are block 0. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the product of the whole matrices. -/
theorem flushed_eq0 (c : Dev nD) (t : Fin cfg0.N) :
    (dat0 (F := Ideal) V c).flushed 2 t
      = ((cfg0.win 2).blk t).view.read (Elt Ideal) (Cert.Stages.mm128 (F := Ideal) (V c main_arg0) (V c main_arg3)) := by
  show (cfg0.win 2).cut (grid0.coords t) ((dat0 (F := Ideal) V c).after 2 t) = _
  rw [after0_2]
  unfold out0_2
  rw [View.canon_unit_zero origin2]
  simp only [View.ld_unit_zero (S := S10000x128) origin2, View.ld_unit_zero (S := S128x256) origin2]
  obtain ⟨e0, e1, e2, e3, e4, -⟩ := blockIndex0 t
  funext j
  refine (pay0_apply (iblk0 V c 0 t) (iblk0 V c 1 t) j).trans
    ((Finset.sum_congr rfl fun k _ => ?_).trans (mm128_apply (V c main_arg0) (V c main_arg3) (((cfg0.win 2).blk t).view.emb j)).symm)
  have hl : ((cfg0.win 0).blk t).view.emb (leftAt128 j k)
      = Cert.ReferenceIdeal.Read.lidx_main_v27 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : ((cfg0.win 1).blk t).view.emb (rightAt128 j k)
      = Cert.ReferenceIdeal.Read.ridx_main_v27 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  have hx : iblk0 V c 0 t (leftAt128 j k)
      = V c main_arg0 (Cert.ReferenceIdeal.Read.lidx_main_v27 (((cfg0.win 2).blk t).view.emb j) k) :=
    congrArg (V c main_arg0) hl
  have hw : iblk0 V c 1 t (rightAt128 j k)
      = V c main_arg3 (Cert.ReferenceIdeal.Read.ridx_main_v27 (((cfg0.win 2).blk t).view.emb j) k) :=
    congrArg (V c main_arg3) hr
  exact congrArg₂ (fun a b : EReal => a * b) hx hw

/-- An index of the output array is in point t's block iff each coordinate is in the block's range on its axis. -/
theorem mem_blk0 (t : Fin cfg0.N) (i : S50000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v27).slice (win0_2.rect t)).set ↔ _
  rw [View.set_slice_whole, Rect.mem_set_unit]
  exact Iff.rfl

/-- Row r of the output lies in the block of point r / 10000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 10000 :=
    ⟨⟨(i 0).val / 10000, lt_of_lt_of_eq (by omega : (i 0).val / 10000 < 5) N_0.symm⟩, rfl⟩
  obtain ⟨-, -, -, -, e4, e5⟩ := blockIndex0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- The output array after the region: the product of the whole left matrix with the weights. -/
theorem final0 (c : Dev nD) :
    (dat0 (F := Ideal) V c).arrAt 2 cfg0.N = Cert.Stages.mm128 (F := Ideal) (V c main_arg0) (V c main_arg3) :=
  (dat0 (F := Ideal) V c).arrAt_eq_of_cover 2 (Cert.Stages.mm128 (F := Ideal) (V c main_arg0) (V c main_arg3))
    (fun t _ => flushed_eq0 V c t) cover0

end Region0

end Cert.KernelIdeal.RegionValue

end
-- ==== Proof.BiasReluAt.lean ====
/-
  Row-vector stages read at an index: a [256] vector repeated on every row of the node-feature matrix,
  and the two epilogues of a layer (bias + rectifier; bias + batch normalisation + rectifier) as
  functions of a row `r` and a column `q`.
-/
import proofs.«158928_j32839319945298_1_alg».proof.Proof.Stages
import Idealize.ShloMosaic.Lib.Pipeline.Value
import Idealize.ShloMosaic.Lib.ValueIdx
import Idealize.ShloMosaic.Lib.ValueLayout

noncomputable section

namespace Cert.KernelIdeal.RegionValue

open Cert.ReferenceIdeal Cert.ReferenceIdeal.Gen Idealize.ShloMosaic
open Idealize.ShloMosaic.ValueIdx

/-- The zero offsets of a whole-buffer load or store. -/
theorem brZeroOffsets : (![0, 0] : Fin 2 → Nat) = fun _ => 0 := funext fun a => by fin_cases a <;> rfl

/-- A feature vector repeated on every node's row, read at row `r`, column `q`, is the vector at `q`. -/
theorem brRowvec_apply (b : (⟨S256, .f32⟩ : BufTy).Contents (Elt Ideal)) (r : Fin 50000) (q : Fin 256) :
    Cert.Stages.rowvec (F := Ideal) b (ix2 r q) = b (ix1 q) := by
  unfold Cert.Stages.rowvec
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- Bias + rectifier at row `r`, column `q`: max(a + b, 0). -/
theorem brBiasRelu_apply (a : (⟨S50000x256, .f32⟩ : BufTy).Contents (Elt Ideal)) (b : (⟨S256, .f32⟩ : BufTy).Contents (Elt Ideal))
    (r : Fin 50000) (q : Fin 256) :
    Cert.Stages.biasRelu (F := Ideal) a b (ix2 r q) = max (a (ix2 r q) + b (ix1 q)) (Ideal.ofBits .f32 0x00000000#32) := by
  unfold Cert.Stages.biasRelu Cert.Stages.relu
  show max (a (ix2 r q) + Cert.Stages.rowvec (F := Ideal) b (ix2 r q)) _ = _
  rw [brRowvec_apply]
  rfl

/-- Bias + batch normalisation + rectifier at row `r`, column `q`:
    max(((a + b1) − mean) · (var + ε)^(-1/2) · gamma + beta, 0). -/
theorem brBnRelu_apply (a : (⟨S50000x256, .f32⟩ : BufTy).Contents (Elt Ideal))
    (b1 gamma beta mean var : (⟨S256, .f32⟩ : BufTy).Contents (Elt Ideal)) (r : Fin 50000) (q : Fin 256) :
    Cert.Stages.bnRelu (F := Ideal) a b1 gamma beta mean var (ix2 r q)
      = max ((((a (ix2 r q) + b1 (ix1 q)) - mean (ix1 q)) * Ideal.rsqrt (var (ix1 q) + Ideal.ofBits .f32 0x3727C5AC#32)) * gamma (ix1 q)
          + beta (ix1 q)) (Ideal.ofBits .f32 0x00000000#32) := by
  unfold Cert.Stages.bnRelu Cert.Stages.relu
  show max ((((a (ix2 r q) + Cert.Stages.rowvec (F := Ideal) b1 (ix2 r q)) - Cert.Stages.rowvec (F := Ideal) mean (ix2 r q))
      * Cert.Stages.rowvec (F := Ideal) (Host.rsqrt (F := Ideal) (addf (F := Ideal) var (broadcastInDim S256 ![] bcast_S_S256 (constant (F := Ideal) S_ .f32 0x3727C5AC#32)))) (ix2 r q))
      * Cert.Stages.rowvec (F := Ideal) gamma (ix2 r q) + Cert.Stages.rowvec (F := Ideal) beta (ix2 r q)) _ = _
  rw [brRowvec_apply, brRowvec_apply, brRowvec_apply, brRowvec_apply, brRowvec_apply]
  rfl

end Cert.KernelIdeal.RegionValue

end
-- ==== Proof.Region1.lean ====
/-
  Region 1: bias + batch normalisation + rectifier over the aggregated features, five blocks of 10000
  rows. What each grid point writes back is its block of
  max(((a + b1) − mean) · (var + ε)^(-1/2) · gamma + beta, 0), and the five blocks tile the array.
-/
import proofs.«158928_j32839319945298_1_alg».proof.Proof.Gen.KernelIdeal.Frame
import proofs.«158928_j32839319945298_1_alg».proof.Proof.BiasReluAt

noncomputable section

namespace Cert.KernelIdeal.RegionValue

open Cert.KernelIdeal Cert.KernelIdeal.Gen Idealize.ShloMosaic Idealize.ShloMosaic.TcCoe
open Idealize.ShloMosaic.ValueIdx
open Idealize.ShloMosaic.Pipeline (Dat Cfg Window)

/-- The body at row p, column q of a block, each of the five vectors read from its one row. -/
theorem bnReluBlock1 (x0 : Vec Ideal S10000x256 .f32) (xb xm xv xg xe : Vec Ideal S1x256 .f32) (p : Fin 10000) (q : Fin 256) :
    k1_pay1 (F := Ideal) x0 xb xm xv xg xe (ix2 p q)
      = max ((((x0 (ix2 p q) + xb (ix2 (0 : Fin 1) q)) - xm (ix2 (0 : Fin 1) q)) * Ideal.rsqrt (xv (ix2 (0 : Fin 1) q) + Ideal.ofBits .f32 0x3727C5AC#32)) * xg (ix2 (0 : Fin 1) q)
          + xe (ix2 (0 : Fin 1) q)) (Ideal.ofBits .f32 0x00000000#32) := by
  unfold k1_pay1
  simp only [shapeCast_self]
  show max ((((x0 (ix2 p q) + broadcastTo S10000x256 xb broadcasts_S1x256_S10000x256 (ix2 p q)) - broadcastTo S10000x256 xm broadcasts_S1x256_S10000x256 (ix2 p q))
      * broadcastTo S10000x256 (rsqrt (F := Ideal) (addf (F := Ideal) xv (broadcast S1x256 (Scalar.ofBits (F := Ideal) .f32 0x3727C5AC#32)))) broadcasts_S1x256_S10000x256 (ix2 p q))
      * broadcastTo S10000x256 xg broadcasts_S1x256_S10000x256 (ix2 p q) + broadcastTo S10000x256 xe broadcasts_S1x256_S10000x256 (ix2 p q)) _ = _
  rw [broadcastTo_1b_ab_apply, broadcastTo_1b_ab_apply, broadcastTo_1b_ab_apply, broadcastTo_1b_ab_apply, broadcastTo_1b_ab_apply]
  rfl

section Region1

variable (V : (c : Dev nD) → (b : Ref sig .tc) → Buf (Elt Ideal) ((c : Thread nD τ).loc b))

/-- The feature windows' index maps over the five points: block t along the rows, block 0 along the columns. -/
theorem blockIndex1 : ∀ t : Fin cfg1.N, win1_0.index t (0 : Fin 2) = t.val ∧ win1_0.index t (1 : Fin 2) = 0
    ∧ win1_6.index t (0 : Fin 2) = t.val ∧ win1_6.index t (1 : Fin 2) = 0 :=
  (by decide +kernel : ∀ t : Fin grid1.N, _)

/-- The five vector windows' index maps over the five points: always the one block. -/
theorem vectorIndex1 : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- Row p of the point's input block is row 10000 t + p of the aggregated features. -/
theorem rows1 (c : Dev nD) (t : Fin cfg1.N) (p : Fin 10000) (q : Fin 256) (r : Fin 50000) (hr : r.val = t.val * 10000 + p.val) :
    iblk1 V c 0 t (ix2 p q) = V c main_v41 (ix2 r q) := by
  obtain ⟨e00, e01, -⟩ := blockIndex1 t
  have h : ((cfg1.win 0).blk t).view.emb (ix2 p q) = ix2 r q := by
    funext a; apply Fin.ext
    match a with
    | ⟨0, _⟩ => show win1_0.index t (0 : Fin 2) * 10000 + 1 * p.val = r.val; omega
    | ⟨1, _⟩ => show win1_0.index t (1 : Fin 2) * 256 + 1 * q.val = q.val; omega
  exact congrArg (V c main_v41) h

/-- The bias window's one block is the whole one-row array, at every point. -/
theorem biasRow1 (c : Dev nD) (t : Fin cfg1.N) (q : Fin 256) :
    iblk1 V c 1 t (ix2 (0 : Fin 1) q) = V c main_v42 (ix2 (0 : Fin 1) q) := by
  have e0 : win1_1.index t (0 : Fin 2) = 0 := (vectorIndex1 t).1.1
  have e1 : win1_1.index t (1 : Fin 2) = 0 := (vectorIndex1 t).1.2
  have h : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 256 + 1 * q.val = q.val; omega
  exact congrArg (V c main_v42) h

/-- The gamma window's one block is the whole one-row array, at every point. -/
theorem gammaRow1 (c : Dev nD) (t : Fin cfg1.N) (q : Fin 256) :
    iblk1 V c 2 t (ix2 (0 : Fin 1) q) = V c main_v43 (ix2 (0 : Fin 1) q) := by
  have e0 : win1_2.index t (0 : Fin 2) = 0 := (vectorIndex1 t).2.1.1
  have e1 : win1_2.index t (1 : Fin 2) = 0 := (vectorIndex1 t).2.1.2
  have h : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 256 + 1 * q.val = q.val; omega
  exact congrArg (V c main_v43) h

/-- The beta window's one block is the whole one-row array, at every point. -/
theorem betaRow1 (c : Dev nD) (t : Fin cfg1.N) (q : Fin 256) :
    iblk1 V c 3 t (ix2 (0 : Fin 1) q) = V c main_v44 (ix2 (0 : Fin 1) q) := by
  have e0 : win1_3.index t (0 : Fin 2) = 0 := (vectorIndex1 t).2.2.1.1
  have e1 : win1_3.index t (1 : Fin 2) = 0 := (vectorIndex1 t).2.2.1.2
  have h : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 256 + 1 * q.val = q.val; omega
  exact congrArg (V c main_v44) h

/-- The mean window's one block is the whole one-row array, at every point. -/
theorem meanRow1 (c : Dev nD) (t : Fin cfg1.N) (q : Fin 256) :
    iblk1 V c 4 t (ix2 (0 : Fin 1) q) = V c main_v45 (ix2 (0 : Fin 1) q) := by
  have e0 : win1_4.index t (0 : Fin 2) = 0 := (vectorIndex1 t).2.2.2.1.1
  have e1 : win1_4.index t (1 : Fin 2) = 0 := (vectorIndex1 t).2.2.2.1.2
  have h : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 256 + 1 * q.val = q.val; omega
  exact congrArg (V c main_v45) h

/-- The variance window's one block is the whole one-row array, at every point. -/
theorem varRow1 (c : Dev nD) (t : Fin cfg1.N) (q : Fin 256) :
    iblk1 V c 5 t (ix2 (0 : Fin 1) q) = V c main_v46 (ix2 (0 : Fin 1) q) := by
  have e0 : win1_5.index t (0 : Fin 2) = 0 := (vectorIndex1 t).2.2.2.2.1
  have e1 : win1_5.index t (1 : Fin 2) = 0 := (vectorIndex1 t).2.2.2.2.2
  have h : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 256 + 1 * q.val = q.val; omega
  exact congrArg (V c main_v46) h

/-- What point t writes back is block t of bias + batch normalisation + rectifier of the aggregated features. -/
theorem flushed_eq1 (c : Dev nD) (b1 g be mu va : (⟨S256, .f32⟩ : BufTy).Contents (Elt Ideal))
    (h1 : V c main_v42 = shapeCast _ b1 shapeCasts_S256_S1x256) (h2 : V c main_v43 = shapeCast _ g shapeCasts_S256_S1x256)
    (h3 : V c main_v44 = shapeCast _ be shapeCasts_S256_S1x256) (h4 : V c main_v45 = shapeCast _ mu shapeCasts_S256_S1x256)
    (h5 : V c main_v46 = shapeCast _ va shapeCasts_S256_S1x256) (t : Fin cfg1.N) :
    (dat1 (F := Ideal) V c).flushed 6 t
      = ((cfg1.win 6).blk t).view.read (Elt Ideal) (Cert.Stages.bnRelu (F := Ideal) (V c main_v41) b1 g be mu va) := by
  show (cfg1.win 6).cut (grid1.coords t) ((dat1 (F := Ideal) V c).after 6 t) = _
  rw [after1_6]
  unfold out1_6
  rw [View.canon_unit_zero brZeroOffsets]
  simp only [View.ld_unit_zero (S := S10000x256) brZeroOffsets, View.ld_unit_zero (S := S1x256) brZeroOffsets]
  funext j
  obtain ⟨p, q, rfl⟩ : ∃ (p : Fin 10000) (q : Fin 256), j = ix2 p q := ⟨j 0, j 1, eq_ix2 j⟩
  obtain ⟨-, -, e60, e61⟩ := blockIndex1 t
  have hN : cfg1.N = 5 := N_1
  have hr : t.val * 10000 + p.val < 50000 := by have := t.isLt; have := p.isLt; omega
  have hemb : ((cfg1.win 6).blk t).view.emb (ix2 p q) = ix2 (⟨t.val * 10000 + p.val, hr⟩ : Fin 50000) q := by
    funext a; apply Fin.ext
    match a with
    | ⟨0, _⟩ => show win1_6.index t (0 : Fin 2) * 10000 + 1 * p.val = t.val * 10000 + p.val; omega
    | ⟨1, _⟩ => show win1_6.index t (1 : Fin 2) * 256 + 1 * q.val = q.val; omega
  have hx := rows1 V c t p q ⟨t.val * 10000 + p.val, hr⟩ rfl
  have hb : iblk1 V c 1 t (ix2 (0 : Fin 1) q) = b1 (ix1 q) :=
    (biasRow1 V c t q).trans ((congrFun h1 _).trans (shapeCast_a_1a_apply b1 shapeCasts_S256_S1x256 0 q))
  have hg : iblk1 V c 2 t (ix2 (0 : Fin 1) q) = g (ix1 q) :=
    (gammaRow1 V c t q).trans ((congrFun h2 _).trans (shapeCast_a_1a_apply g shapeCasts_S256_S1x256 0 q))
  have he : iblk1 V c 3 t (ix2 (0 : Fin 1) q) = be (ix1 q) :=
    (betaRow1 V c t q).trans ((congrFun h3 _).trans (shapeCast_a_1a_apply be shapeCasts_S256_S1x256 0 q))
  have hm : iblk1 V c 4 t (ix2 (0 : Fin 1) q) = mu (ix1 q) :=
    (meanRow1 V c t q).trans ((congrFun h4 _).trans (shapeCast_a_1a_apply mu shapeCasts_S256_S1x256 0 q))
  have hv : iblk1 V c 5 t (ix2 (0 : Fin 1) q) = va (ix1 q) :=
    (varRow1 V c t q).trans ((congrFun h5 _).trans (shapeCast_a_1a_apply va shapeCasts_S256_S1x256 0 q))
  refine (bnReluBlock1 (iblk1 V c 0 t) (iblk1 V c 1 t) (iblk1 V c 4 t) (iblk1 V c 5 t) (iblk1 V c 2 t) (iblk1 V c 3 t) p q).trans ?_
  refine Eq.trans ?_ ((congrArg (Cert.Stages.bnRelu (F := Ideal) (V c main_v41) b1 g be mu va) hemb).trans
    (brBnRelu_apply (V c main_v41) b1 g be mu va ⟨t.val * 10000 + p.val, hr⟩ q)).symm
  rw [hx, hb, hg, he, hm, hv]

/-- An index of the array is in point t's block iff each coordinate is in the block's range on its axis. -/
theorem mem_blk1 (t : Fin cfg1.N) (i : S50000x256.Idx) :
    i ∈ ((cfg1.win 6).blk t).view.set ↔ ∀ a : Fin 2, win1_6.index t a * S10000x256.size a ≤ (i a).val ∧ (i a).val < win1_6.index t a * S10000x256.size a + S10000x256.size a := by
  show i ∈ ((View.whole main_v47).slice (win1_6.rect t)).set ↔ _
  rw [View.set_slice_whole, Rect.mem_set_unit]
  exact Iff.rfl

/-- Row r is written by point r / 10000. -/
theorem cover1 (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ : ∃ t : Fin cfg1.N, t.val = (i 0).val / 10000 :=
    ⟨⟨(i 0).val / 10000, lt_of_lt_of_eq (by omega : (i 0).val / 10000 < 5) N_1.symm⟩, rfl⟩
  obtain ⟨-, -, e60, e61⟩ := blockIndex1 t
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 256 ≤ (i 1).val ∧ (i 1).val < win1_6.index t (1 : Fin 2) * 256 + 256; omega

/-- The array after the region: bias + batch normalisation + rectifier of the aggregated features. -/
theorem final1 (c : Dev nD) (b1 g be mu va : (⟨S256, .f32⟩ : BufTy).Contents (Elt Ideal))
    (h1 : V c main_v42 = shapeCast _ b1 shapeCasts_S256_S1x256) (h2 : V c main_v43 = shapeCast _ g shapeCasts_S256_S1x256)
    (h3 : V c main_v44 = shapeCast _ be shapeCasts_S256_S1x256) (h4 : V c main_v45 = shapeCast _ mu shapeCasts_S256_S1x256)
    (h5 : V c main_v46 = shapeCast _ va shapeCasts_S256_S1x256) :
    (dat1 (F := Ideal) V c).arrAt 6 cfg1.N = Cert.Stages.bnRelu (F := Ideal) (V c main_v41) b1 g be mu va :=
  (dat1 (F := Ideal) V c).arrAt_eq_of_cover 6 (Cert.Stages.bnRelu (F := Ideal) (V c main_v41) b1 g be mu va)
    (fun t _ => flushed_eq1 V c b1 g be mu va h1 h2 h3 h4 h5 t) cover1

end Region1

end Cert.KernelIdeal.RegionValue

end
-- ==== Proof.Region2.lean ====
/-
  Region 2: the feature transform of a later layer, five blocks of 10000 rows.

  Point t multiplies rows 10000·t … 10000·t + 9999 of the left matrix by the whole weight matrix and writes
  the product to the same rows of the output; the five blocks tile the 50000 rows, so the output array ends
  holding the product of the whole left matrix with the weights.
-/
import proofs.«158928_j32839319945298_1_alg».proof.Proof.Gen.KernelIdeal.Frame
import proofs.«158928_j32839319945298_1_alg».proof.Proof.Stages
import proofs.«158928_j32839319945298_1_alg».proof.Proof.MatmulAt
import Idealize.ShloMosaic.Lib.Pipeline.Value

noncomputable section

namespace Cert.KernelIdeal.RegionValue

open Cert.KernelIdeal Cert.KernelIdeal.Gen Idealize.ShloMosaic Idealize.ShloMosaic.TcCoe
open Idealize.ShloMosaic.Pipeline (Dat Cfg Window)

section Region2

variable (V : (c : Dev nD) → (b : Ref sig .tc) → Buf (Elt Ideal) ((c : Thread nD τ).loc b))

/-- The index maps over the five points: the left block and the output block are the same block of rows, block
    t; the weights' block and every column block are block 0. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is block t of the product of the whole matrices. -/
theorem flushed_eq2 (c : Dev nD) (t : Fin cfg2.N) :
    (dat2 (F := Ideal) V c).flushed 2 t
      = ((cfg2.win 2).blk t).view.read (Elt Ideal) (Cert.Stages.mm256 (F := Ideal) (V c main_v47) (V c main_v49)) := by
  show (cfg2.win 2).cut (grid2.coords t) ((dat2 (F := Ideal) V c).after 2 t) = _
  rw [after2_2]
  unfold out2_2
  rw [View.canon_unit_zero origin2]
  simp only [View.ld_unit_zero (S := S10000x256) origin2, View.ld_unit_zero (S := S256x256) origin2]
  obtain ⟨e0, e1, e2, e3, e4, -⟩ := blockIndex2 t
  funext j
  refine (pay2_apply (iblk2 V c 0 t) (iblk2 V c 1 t) j).trans
    ((Finset.sum_congr rfl fun k _ => ?_).trans (mm256_apply (V c main_v47) (V c main_v49) (((cfg2.win 2).blk t).view.emb j)).symm)
  have hl : ((cfg2.win 0).blk t).view.emb (leftAt256 j k)
      = Cert.ReferenceIdeal.Read.lidx_main_v64 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 256 + 1 * k.val = k.val; omega
  have hr : ((cfg2.win 1).blk t).view.emb (rightAt256 j k)
      = Cert.ReferenceIdeal.Read.ridx_main_v64 (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  have hx : iblk2 V c 0 t (leftAt256 j k)
      = V c main_v47 (Cert.ReferenceIdeal.Read.lidx_main_v64 (((cfg2.win 2).blk t).view.emb j) k) :=
    congrArg (V c main_v47) hl
  have hw : iblk2 V c 1 t (rightAt256 j k)
      = V c main_v49 (Cert.ReferenceIdeal.Read.ridx_main_v64 (((cfg2.win 2).blk t).view.emb j) k) :=
    congrArg (V c main_v49) hr
  exact congrArg₂ (fun a b : EReal => a * b) hx hw

/-- An index of the output array is in point t's block iff each coordinate is in the block's range on its axis. -/
theorem mem_blk2 (t : Fin cfg2.N) (i : S50000x256.Idx) :
    i ∈ ((cfg2.win 2).blk t).view.set ↔ ∀ a : Fin 2, win2_2.index t a * S10000x256.size a ≤ (i a).val ∧ (i a).val < win2_2.index t a * S10000x256.size a + S10000x256.size a := by
  show i ∈ ((View.whole main_v50).slice (win2_2.rect t)).set ↔ _
  rw [View.set_slice_whole, Rect.mem_set_unit]
  exact Iff.rfl

/-- Row r of the output lies in the block of point r / 10000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 10000 :=
    ⟨⟨(i 0).val / 10000, lt_of_lt_of_eq (by omega : (i 0).val / 10000 < 5) N_2.symm⟩, rfl⟩
  obtain ⟨-, -, -, -, e4, e5⟩ := blockIndex2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 256 ≤ (i 1).val ∧ (i 1).val < win2_2.index t (1 : Fin 2) * 256 + 256; omega

/-- The output array after the region: the product of the whole left matrix with the weights. -/
theorem final2 (c : Dev nD) :
    (dat2 (F := Ideal) V c).arrAt 2 cfg2.N = Cert.Stages.mm256 (F := Ideal) (V c main_v47) (V c main_v49) :=
  (dat2 (F := Ideal) V c).arrAt_eq_of_cover 2 (Cert.Stages.mm256 (F := Ideal) (V c main_v47) (V c main_v49))
    (fun t _ => flushed_eq2 V c t) cover2

end Region2

end Cert.KernelIdeal.RegionValue

end
-- ==== Proof.Region3.lean ====
/-
  Region 3: bias + rectifier over the aggregated features, five blocks of 10000 rows. What each
  grid point writes back is its block of max(a + b, 0), and the five blocks tile the array.
-/
import proofs.«158928_j32839319945298_1_alg».proof.Proof.Gen.KernelIdeal.Frame
import proofs.«158928_j32839319945298_1_alg».proof.Proof.BiasReluAt

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body at row `p`, column `q` of a block: max(x + b, 0), the bias read from its one row. -/
theorem biasReluBlock3 (x0 : Vec Ideal S10000x256 .f32) (x1 : Vec Ideal S1x256 .f32) (p : Fin 10000) (q : Fin 256) :
    k3_pay1 (F := Ideal) x0 x1 (ix2 p q) = max (x0 (ix2 p q) + x1 (ix2 (0 : Fin 1) q)) (Ideal.ofBits .f32 0x00000000#32) := by
  unfold k3_pay1
  simp only [shapeCast_self]
  show max (x0 (ix2 p q) + broadcastTo S10000x256 x1 broadcasts_S1x256_S10000x256 (ix2 p q)) _ = _
  rw [broadcastTo_1b_ab_apply]
  rfl

variable (V : (c : Dev nD) → (b : Ref sig .tc) → Buf (Elt Ideal) ((c : Thread nD τ).loc b))

/-- The index maps over the grid: the feature windows' block is the point's number along the rows, the
    bias window's block is the one block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the point's input block is row `10000 t + p` of the aggregated features. -/
theorem rows3 (c : Dev nD) (t : Fin cfg3.N) (p : Fin 10000) (q : Fin 256) (r : Fin 50000) (hr : r.val = t.val * 10000 + p.val) :
    iblk3 V c 0 t (ix2 p q) = (V c main_v64 : S50000x256.Idx → EReal) (ix2 r q) := by
  obtain ⟨e00, e01, -⟩ := blockIndex3 t
  unfold iblk3
  rw [View.read_apply]
  show V c main_v64 (((cfg3.win 0).blk t).view.emb (ix2 p q)) = V c main_v64 (ix2 r q)
  congr 1
  funext a
  apply Fin.ext
  match a with
  | ⟨0, _⟩ => show win3_0.index t (0 : Fin 2) * 10000 + 1 * p.val = r.val; omega
  | ⟨1, _⟩ => show win3_0.index t (1 : Fin 2) * 256 + 1 * q.val = q.val; omega

/-- The bias window's one block is the whole one-row array, at every point. -/
theorem biasRow3 (c : Dev nD) (t : Fin cfg3.N) (q : Fin 256) :
    iblk3 V c 1 t (ix2 (0 : Fin 1) q) = (V c main_v67 : S1x256.Idx → EReal) (ix2 (0 : Fin 1) q) := by
  obtain ⟨-, -, e10, e11, -⟩ := blockIndex3 t
  unfold iblk3
  rw [View.read_apply]
  show V c main_v67 (((cfg3.win 1).blk t).view.emb (ix2 (0 : Fin 1) q)) = V c main_v67 (ix2 (0 : Fin 1) q)
  congr 1
  funext a
  apply Fin.ext
  match a with
  | ⟨0, _⟩ => show win3_1.index t (0 : Fin 2) * 1 + 1 * 0 = 0; omega
  | ⟨1, _⟩ => show win3_1.index t (1 : Fin 2) * 256 + 1 * q.val = q.val; omega

/-- What point `t` writes back is block `t` of bias + rectifier of the aggregated features. -/
theorem flushed3 (c : Dev nD) (b : (⟨S256, .f32⟩ : BufTy).Contents (Elt Ideal))
    (hb : V c main_v67 = shapeCast _ b shapeCasts_S256_S1x256) (t : Fin cfg3.N) :
    (dat3 (F := Ideal) V c).flushed 2 t = ((cfg3.win 2).blk t).view.read (Elt Ideal) (Cert.Stages.biasRelu (F := Ideal) (V c main_v64) b) := by
  show (cfg3.win 2).cut (grid3.coords t) ((dat3 V c).after 2 t) = _
  rw [after3_2]
  unfold out3_2
  rw [View.canon_unit_zero brZeroOffsets]
  simp only [View.ld_unit_zero (S := S10000x256) brZeroOffsets, View.ld_unit_zero (S := S1x256) brZeroOffsets]
  funext j
  obtain ⟨p, q, rfl⟩ : ∃ (p : Fin 10000) (q : Fin 256), j = ix2 p q := ⟨j 0, j 1, eq_ix2 j⟩
  obtain ⟨e00, e01, e10, e11, e20, e21⟩ := blockIndex3 t
  refine (biasReluBlock3 _ _ p q).trans ?_
  have hN : cfg3.N = 5 := N_3
  have hr : t.val * 10000 + p.val < 50000 := by have := t.isLt; have := p.isLt; omega
  rw [rows3 V c t p q ⟨t.val * 10000 + p.val, hr⟩ rfl, biasRow3 V c t q, hb, shapeCast_a_1a_apply, View.read_apply]
  have hemb : ((View.whole main_v68).slice ((win3 2).rect t)).emb (ix2 p q) = ix2 (⟨t.val * 10000 + p.val, hr⟩ : Fin 50000) q := by
    funext a
    apply Fin.ext
    match a with
    | ⟨0, _⟩ => show win3_2.index t (0 : Fin 2) * 10000 + 1 * p.val = t.val * 10000 + p.val; omega
    | ⟨1, _⟩ => show win3_2.index t (1 : Fin 2) * 256 + 1 * q.val = q.val; omega
  rw [hemb, brBiasRelu_apply]
  rfl

/-- An index of the array is in point `t`'s block iff each coordinate is in the block's range on its axis. -/
theorem mem_block3 (t : Fin cfg3.N) (i : S50000x256.Idx) :
    i ∈ ((cfg3.win 2).blk t).view.set ↔ ∀ a : Fin 2, win3_2.index t a * S10000x256.size a ≤ (i a).val ∧ (i a).val < win3_2.index t a * S10000x256.size a + S10000x256.size a := by
  show i ∈ ((View.whole main_v68).slice (win3_2.rect t)).set ↔ _
  rw [View.set_slice_whole, Rect.mem_set_unit]
  exact Iff.rfl

/-- Row `r` is written by point `r / 10000`. -/
theorem cover3 (i : S50000x256.Idx) : ∃ t : Fin cfg3.N, (cfg3.win 2).flush t = true ∧ i ∈ ((cfg3.win 2).blk t).view.set := by
  have hN : cfg3.N = 5 := N_3
  have h0 : (i 0).val < 50000 := (i 0).isLt
  have h1 : (i 1).val < 256 := (i 1).isLt
  obtain ⟨t, ht⟩ : ∃ t : Fin cfg3.N, t.val = (i 0).val / 10000 := ⟨⟨(i 0).val / 10000, by omega⟩, rfl⟩
  obtain ⟨-, -, -, -, e20, e21⟩ := blockIndex3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 256 ≤ (i 1).val ∧ (i 1).val < win3_2.index t (1 : Fin 2) * 256 + 256; omega

/-- The array after the region: bias + rectifier of the aggregated features. -/
theorem final3 (c : Dev nD) (b : (⟨S256, .f32⟩ : BufTy).Contents (Elt Ideal))
    (hb : V c main_v67 = shapeCast _ b shapeCasts_S256_S1x256) :
    (dat3 (F := Ideal) V c).arrAt 2 cfg3.N = Cert.Stages.biasRelu (F := Ideal) (V c main_v64) b :=
  (dat3 V c).arrAt_eq_of_cover 2 _ (fun t _ => flushed3 V c b hb t) cover3

end Cert.KernelIdeal.RegionValue

end
-- ==== Proof.Region4.lean ====
/-
  Region 4: the feature transform of a later layer, five blocks of 10000 rows.

  Point t multiplies rows 10000·t … 10000·t + 9999 of the left matrix by the whole weight matrix and writes
  the product to the same rows of the output; the five blocks tile the 50000 rows, so the output array ends
  holding the product of the whole left matrix with the weights.
-/
import proofs.«158928_j32839319945298_1_alg».proof.Proof.Gen.KernelIdeal.Frame
import proofs.«158928_j32839319945298_1_alg».proof.Proof.Stages
import proofs.«158928_j32839319945298_1_alg».proof.Proof.MatmulAt
import Idealize.ShloMosaic.Lib.Pipeline.Value

noncomputable section

namespace Cert.KernelIdeal.RegionValue

open Cert.KernelIdeal Cert.KernelIdeal.Gen Idealize.ShloMosaic Idealize.ShloMosaic.TcCoe
open Idealize.ShloMosaic.Pipeline (Dat Cfg Window)

section Region4

variable (V : (c : Dev nD) → (b : Ref sig .tc) → Buf (Elt Ideal) ((c : Thread nD τ).loc b))

/-- The index maps over the five points: the left block and the output block are the same block of rows, block
    t; the weights' block and every column block are block 0. -/
theorem blockIndex4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What point t writes back is block t of the product of the whole matrices. -/
theorem flushed_eq4 (c : Dev nD) (t : Fin cfg4.N) :
    (dat4 (F := Ideal) V c).flushed 2 t
      = ((cfg4.win 2).blk t).view.read (Elt Ideal) (Cert.Stages.mm256 (F := Ideal) (V c main_v68) (V c main_v70)) := by
  show (cfg4.win 2).cut (grid4.coords t) ((dat4 (F := Ideal) V c).after 2 t) = _
  rw [after4_2]
  unfold out4_2
  rw [View.canon_unit_zero origin2]
  simp only [View.ld_unit_zero (S := S10000x256) origin2, View.ld_unit_zero (S := S256x256) origin2]
  obtain ⟨e0, e1, e2, e3, e4, -⟩ := blockIndex4 t
  funext j
  refine (pay4_apply (iblk4 V c 0 t) (iblk4 V c 1 t) j).trans
    ((Finset.sum_congr rfl fun k _ => ?_).trans (mm256_apply (V c main_v68) (V c main_v70) (((cfg4.win 2).blk t).view.emb j)).symm)
  have hl : ((cfg4.win 0).blk t).view.emb (leftAt256 j k)
      = Cert.ReferenceIdeal.Read.lidx_main_v64 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 256 + 1 * k.val = k.val; omega
  have hr : ((cfg4.win 1).blk t).view.emb (rightAt256 j k)
      = Cert.ReferenceIdeal.Read.ridx_main_v64 (((cfg4.win 2).blk t).view.emb j) k := by
    funext a; apply Fin.ext
    match a with
    | ⟨0, _⟩ => show win4_1.index t (0 : Fin 2) * 256 + 1 * k.val = k.val; omega
    | ⟨1, _⟩ => show win4_1.index t (1 : Fin 2) * 256 + 1 * (j 1).val = win4_2.index t (1 : Fin 2) * 256 + 1 * (j 1).val; omega
  have hx : iblk4 V c 0 t (leftAt256 j k)
      = V c main_v68 (Cert.ReferenceIdeal.Read.lidx_main_v64 (((cfg4.win 2).blk t).view.emb j) k) :=
    congrArg (V c main_v68) hl
  have hw : iblk4 V c 1 t (rightAt256 j k)
      = V c main_v70 (Cert.ReferenceIdeal.Read.ridx_main_v64 (((cfg4.win 2).blk t).view.emb j) k) :=
    congrArg (V c main_v70) hr
  exact congrArg₂ (fun a b : EReal => a * b) hx hw

/-- An index of the output array is in point t's block iff each coordinate is in the block's range on its axis. -/
theorem mem_blk4 (t : Fin cfg4.N) (i : S50000x256.Idx) :
    i ∈ ((cfg4.win 2).blk t).view.set ↔ ∀ a : Fin 2, win4_2.index t a * S10000x256.size a ≤ (i a).val ∧ (i a).val < win4_2.index t a * S10000x256.size a + S10000x256.size a := by
  show i ∈ ((View.whole main_v71).slice (win4_2.rect t)).set ↔ _
  rw [View.set_slice_whole, Rect.mem_set_unit]
  exact Iff.rfl

/-- Row r of the output lies in the block of point r / 10000. -/
theorem cover4 (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ : ∃ t : Fin cfg4.N, t.val = (i 0).val / 10000 :=
    ⟨⟨(i 0).val / 10000, lt_of_lt_of_eq (by omega : (i 0).val / 10000 < 5) N_4.symm⟩, rfl⟩
  obtain ⟨-, -, -, -, e4, e5⟩ := blockIndex4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 256 ≤ (i 1).val ∧ (i 1).val < win4_2.index t (1 : Fin 2) * 256 + 256; omega

/-- The output array after the region: the product of the whole left matrix with the weights. -/
theorem final4 (c : Dev nD) :
    (dat4 (F := Ideal) V c).arrAt 2 cfg4.N = Cert.Stages.mm256 (F := Ideal) (V c main_v68) (V c main_v70) :=
  (dat4 (F := Ideal) V c).arrAt_eq_of_cover 2 (Cert.Stages.mm256 (F := Ideal) (V c main_v68) (V c main_v70))
    (fun t _ => flushed_eq4 V c t) cover4

end Region4

end Cert.KernelIdeal.RegionValue

end
-- ==== Proof.Region5.lean ====
/-
  Region 5: bias + rectifier over the aggregated features, five blocks of 10000 rows. What each
  grid point writes back is its block of max(a + b, 0), and the five blocks tile the array.
-/
import proofs.«158928_j32839319945298_1_alg».proof.Proof.Gen.KernelIdeal.Frame
import proofs.«158928_j32839319945298_1_alg».proof.Proof.BiasReluAt

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body at row `p`, column `q` of a block: max(x + b, 0), the bias read from its one row. -/
theorem biasReluBlock5 (x0 : Vec Ideal S10000x256 .f32) (x1 : Vec Ideal S1x256 .f32) (p : Fin 10000) (q : Fin 256) :
    k5_pay1 (F := Ideal) x0 x1 (ix2 p q) = max (x0 (ix2 p q) + x1 (ix2 (0 : Fin 1) q)) (Ideal.ofBits .f32 0x00000000#32) := by
  unfold k5_pay1
  simp only [shapeCast_self]
  show max (x0 (ix2 p q) + broadcastTo S10000x256 x1 broadcasts_S1x256_S10000x256 (ix2 p q)) _ = _
  rw [broadcastTo_1b_ab_apply]
  rfl

variable (V : (c : Dev nD) → (b : Ref sig .tc) → Buf (Elt Ideal) ((c : Thread nD τ).loc b))

/-- The index maps over the grid: the feature windows' block is the point's number along the rows, the
    bias window's block is the one block. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p` of the point's input block is row `10000 t + p` of the aggregated features. -/
theorem rows5 (c : Dev nD) (t : Fin cfg5.N) (p : Fin 10000) (q : Fin 256) (r : Fin 50000) (hr : r.val = t.val * 10000 + p.val) :
    iblk5 V c 0 t (ix2 p q) = (V c main_v85 : S50000x256.Idx → EReal) (ix2 r q) := by
  obtain ⟨e00, e01, -⟩ := blockIndex5 t
  unfold iblk5
  rw [View.read_apply]
  show V c main_v85 (((cfg5.win 0).blk t).view.emb (ix2 p q)) = V c main_v85 (ix2 r q)
  congr 1
  funext a
  apply Fin.ext
  match a with
  | ⟨0, _⟩ => show win5_0.index t (0 : Fin 2) * 10000 + 1 * p.val = r.val; omega
  | ⟨1, _⟩ => show win5_0.index t (1 : Fin 2) * 256 + 1 * q.val = q.val; omega

/-- The bias window's one block is the whole one-row array, at every point. -/
theorem biasRow5 (c : Dev nD) (t : Fin cfg5.N) (q : Fin 256) :
    iblk5 V c 1 t (ix2 (0 : Fin 1) q) = (V c main_v88 : S1x256.Idx → EReal) (ix2 (0 : Fin 1) q) := by
  obtain ⟨-, -, e10, e11, -⟩ := blockIndex5 t
  unfold iblk5
  rw [View.read_apply]
  show V c main_v88 (((cfg5.win 1).blk t).view.emb (ix2 (0 : Fin 1) q)) = V c main_v88 (ix2 (0 : Fin 1) q)
  congr 1
  funext a
  apply Fin.ext
  match a with
  | ⟨0, _⟩ => show win5_1.index t (0 : Fin 2) * 1 + 1 * 0 = 0; omega
  | ⟨1, _⟩ => show win5_1.index t (1 : Fin 2) * 256 + 1 * q.val = q.val; omega

/-- What point `t` writes back is block `t` of bias + rectifier of the aggregated features. -/
theorem flushed5 (c : Dev nD) (b : (⟨S256, .f32⟩ : BufTy).Contents (Elt Ideal))
    (hb : V c main_v88 = shapeCast _ b shapeCasts_S256_S1x256) (t : Fin cfg5.N) :
    (dat5 (F := Ideal) V c).flushed 2 t = ((cfg5.win 2).blk t).view.read (Elt Ideal) (Cert.Stages.biasRelu (F := Ideal) (V c main_v85) b) := by
  show (cfg5.win 2).cut (grid5.coords t) ((dat5 V c).after 2 t) = _
  rw [after5_2]
  unfold out5_2
  rw [View.canon_unit_zero brZeroOffsets]
  simp only [View.ld_unit_zero (S := S10000x256) brZeroOffsets, View.ld_unit_zero (S := S1x256) brZeroOffsets]
  funext j
  obtain ⟨p, q, rfl⟩ : ∃ (p : Fin 10000) (q : Fin 256), j = ix2 p q := ⟨j 0, j 1, eq_ix2 j⟩
  obtain ⟨e00, e01, e10, e11, e20, e21⟩ := blockIndex5 t
  refine (biasReluBlock5 _ _ p q).trans ?_
  have hN : cfg5.N = 5 := N_5
  have hr : t.val * 10000 + p.val < 50000 := by have := t.isLt; have := p.isLt; omega
  rw [rows5 V c t p q ⟨t.val * 10000 + p.val, hr⟩ rfl, biasRow5 V c t q, hb, shapeCast_a_1a_apply, View.read_apply]
  have hemb : ((View.whole main_v89).slice ((win5 2).rect t)).emb (ix2 p q) = ix2 (⟨t.val * 10000 + p.val, hr⟩ : Fin 50000) q := by
    funext a
    apply Fin.ext
    match a with
    | ⟨0, _⟩ => show win5_2.index t (0 : Fin 2) * 10000 + 1 * p.val = t.val * 10000 + p.val; omega
    | ⟨1, _⟩ => show win5_2.index t (1 : Fin 2) * 256 + 1 * q.val = q.val; omega
  rw [hemb, brBiasRelu_apply]
  rfl

/-- An index of the array is in point `t`'s block iff each coordinate is in the block's range on its axis. -/
theorem mem_block5 (t : Fin cfg5.N) (i : S50000x256.Idx) :
    i ∈ ((cfg5.win 2).blk t).view.set ↔ ∀ a : Fin 2, win5_2.index t a * S10000x256.size a ≤ (i a).val ∧ (i a).val < win5_2.index t a * S10000x256.size a + S10000x256.size a := by
  show i ∈ ((View.whole main_v89).slice (win5_2.rect t)).set ↔ _
  rw [View.set_slice_whole, Rect.mem_set_unit]
  exact Iff.rfl

/-- Row `r` is written by point `r / 10000`. -/
theorem cover5 (i : S50000x256.Idx) : ∃ t : Fin cfg5.N, (cfg5.win 2).flush t = true ∧ i ∈ ((cfg5.win 2).blk t).view.set := by
  have hN : cfg5.N = 5 := N_5
  have h0 : (i 0).val < 50000 := (i 0).isLt
  have h1 : (i 1).val < 256 := (i 1).isLt
  obtain ⟨t, ht⟩ : ∃ t : Fin cfg5.N, t.val = (i 0).val / 10000 := ⟨⟨(i 0).val / 10000, by omega⟩, rfl⟩
  obtain ⟨-, -, -, -, e20, e21⟩ := blockIndex5 t
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 256 ≤ (i 1).val ∧ (i 1).val < win5_2.index t (1 : Fin 2) * 256 + 256; omega

/-- The array after the region: bias + rectifier of the aggregated features. -/
theorem final5 (c : Dev nD) (b : (⟨S256, .f32⟩ : BufTy).Contents (Elt Ideal))
    (hb : V c main_v88 = shapeCast _ b shapeCasts_S256_S1x256) :
    (dat5 (F := Ideal) V c).arrAt 2 cfg5.N = Cert.Stages.biasRelu (F := Ideal) (V c main_v85) b :=
  (dat5 V c).arrAt_eq_of_cover 2 _ (fun t _ => flushed5 V c b hb t) cover5

end Cert.KernelIdeal.RegionValue

end
-- ==== Proof.Region6.lean ====
/-
  Region 6: the feature transform of a later layer, five blocks of 10000 rows.

  Point t multiplies rows 10000·t … 10000·t + 9999 of the left matrix by the whole weight matrix and writes
  the product to the same rows of the output; the five blocks tile the 50000 rows, so the output array ends
  holding the product of the whole left matrix with the weights.
-/
import proofs.«158928_j32839319945298_1_alg».proof.Proof.Gen.KernelIdeal.Frame
import proofs.«158928_j32839319945298_1_alg».proof.Proof.Stages
import proofs.«158928_j32839319945298_1_alg».proof.Proof.MatmulAt
import Idealize.ShloMosaic.Lib.Pipeline.Value

noncomputable section

namespace Cert.KernelIdeal.RegionValue

open Cert.KernelIdeal Cert.KernelIdeal.Gen Idealize.ShloMosaic Idealize.ShloMosaic.TcCoe
open Idealize.ShloMosaic.Pipeline (Dat Cfg Window)

section Region6

variable (V : (c : Dev nD) → (b : Ref sig .tc) → Buf (Elt Ideal) ((c : Thread nD τ).loc b))

/-- The index maps over the five points: the left block and the output block are the same block of rows, block
    t; the weights' block and every column block are block 0. -/
theorem blockIndex6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) = t.val :=
  (by decide +kernel : ∀ t : Fin grid6.N, _)

/-- What point t writes back is block t of the product of the whole matrices. -/
theorem flushed_eq6 (c : Dev nD) (t : Fin cfg6.N) :
    (dat6 (F := Ideal) V c).flushed 2 t
      = ((cfg6.win 2).blk t).view.read (Elt Ideal) (Cert.Stages.mm256 (F := Ideal) (V c main_v89) (V c main_v91)) := by
  show (cfg6.win 2).cut (grid6.coords t) ((dat6 (F := Ideal) V c).after 2 t) = _
  rw [after6_2]
  unfold out6_2
  rw [View.canon_unit_zero origin2]
  simp only [View.ld_unit_zero (S := S10000x256) origin2, View.ld_unit_zero (S := S256x256) origin2]
  obtain ⟨e0, e1, e2, e3, e4, -⟩ := blockIndex6 t
  funext j
  refine (pay6_apply (iblk6 V c 0 t) (iblk6 V c 1 t) j).trans
    ((Finset.sum_congr rfl fun k _ => ?_).trans (mm256_apply (V c main_v89) (V c main_v91) (((cfg6.win 2).blk t).view.emb j)).symm)
  have hl : ((cfg6.win 0).blk t).view.emb (leftAt256 j k)
      = Cert.ReferenceIdeal.Read.lidx_main_v64 (((cfg6.win 2).blk t).view.emb j) k := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 256 + 1 * k.val = k.val; omega
  have hr : ((cfg6.win 1).blk t).view.emb (rightAt256 j k)
      = Cert.ReferenceIdeal.Read.ridx_main_v64 (((cfg6.win 2).blk t).view.emb j) k := by
    funext a; apply Fin.ext
    match a with
    | ⟨0, _⟩ => show win6_1.index t (0 : Fin 2) * 256 + 1 * k.val = k.val; omega
    | ⟨1, _⟩ => show win6_1.index t (1 : Fin 2) * 256 + 1 * (j 1).val = win6_2.index t (1 : Fin 2) * 256 + 1 * (j 1).val; omega
  have hx : iblk6 V c 0 t (leftAt256 j k)
      = V c main_v89 (Cert.ReferenceIdeal.Read.lidx_main_v64 (((cfg6.win 2).blk t).view.emb j) k) :=
    congrArg (V c main_v89) hl
  have hw : iblk6 V c 1 t (rightAt256 j k)
      = V c main_v91 (Cert.ReferenceIdeal.Read.ridx_main_v64 (((cfg6.win 2).blk t).view.emb j) k) :=
    congrArg (V c main_v91) hr
  exact congrArg₂ (fun a b : EReal => a * b) hx hw

/-- An index of the output array is in point t's block iff each coordinate is in the block's range on its axis. -/
theorem mem_blk6 (t : Fin cfg6.N) (i : S50000x256.Idx) :
    i ∈ ((cfg6.win 2).blk t).view.set ↔ ∀ a : Fin 2, win6_2.index t a * S10000x256.size a ≤ (i a).val ∧ (i a).val < win6_2.index t a * S10000x256.size a + S10000x256.size a := by
  show i ∈ ((View.whole main_v92).slice (win6_2.rect t)).set ↔ _
  rw [View.set_slice_whole, Rect.mem_set_unit]
  exact Iff.rfl

/-- Row r of the output lies in the block of point r / 10000. -/
theorem cover6 (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  obtain ⟨t, ht⟩ : ∃ t : Fin cfg6.N, t.val = (i 0).val / 10000 :=
    ⟨⟨(i 0).val / 10000, lt_of_lt_of_eq (by omega : (i 0).val / 10000 < 5) N_6.symm⟩, rfl⟩
  obtain ⟨-, -, -, -, e4, e5⟩ := blockIndex6 t
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 256 ≤ (i 1).val ∧ (i 1).val < win6_2.index t (1 : Fin 2) * 256 + 256; omega

/-- The output array after the region: the product of the whole left matrix with the weights. -/
theorem final6 (c : Dev nD) :
    (dat6 (F := Ideal) V c).arrAt 2 cfg6.N = Cert.Stages.mm256 (F := Ideal) (V c main_v89) (V c main_v91) :=
  (dat6 (F := Ideal) V c).arrAt_eq_of_cover 2 (Cert.Stages.mm256 (F := Ideal) (V c main_v89) (V c main_v91))
    (fun t _ => flushed_eq6 V c t) cover6

end Region6

end Cert.KernelIdeal.RegionValue

end
-- ==== Proof.Region7.lean ====
/-
  Region 7: bias + rectifier over the aggregated features, five blocks of 10000 rows. What each
  grid point writes back is its block of max(a + b, 0), and the five blocks tile the array.
-/
import proofs.«158928_j32839319945298_1_alg».proof.Proof.Gen.KernelIdeal.Frame
import proofs.«158928_j32839319945298_1_alg».proof.Proof.BiasReluAt

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body at row `p`, column `q` of a block: max(x + b, 0), the bias read from its one row. -/
theorem biasReluBlock7 (x0 : Vec Ideal S10000x256 .f32) (x1 : Vec Ideal S1x256 .f32) (p : Fin 10000) (q : Fin 256) :
    k7_pay1 (F := Ideal) x0 x1 (ix2 p q) = max (x0 (ix2 p q) + x1 (ix2 (0 : Fin 1) q)) (Ideal.ofBits .f32 0x00000000#32) := by
  unfold k7_pay1
  simp only [shapeCast_self]
  show max (x0 (ix2 p q) + broadcastTo S10000x256 x1 broadcasts_S1x256_S10000x256 (ix2 p q)) _ = _
  rw [broadcastTo_1b_ab_apply]
  rfl

variable (V : (c : Dev nD) → (b : Ref sig .tc) → Buf (Elt Ideal) ((c : Thread nD τ).loc b))

/-- The index maps over the grid: the feature windows' block is the point's number along the rows, the
    bias window's block is the one block. -/
theorem blockIndex7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Row `p` of the point's input block is row `10000 t + p` of the aggregated features. -/
theorem rows7 (c : Dev nD) (t : Fin cfg7.N) (p : Fin 10000) (q : Fin 256) (r : Fin 50000) (hr : r.val = t.val * 10000 + p.val) :
    iblk7 V c 0 t (ix2 p q) = (V c main_v106 : S50000x256.Idx → EReal) (ix2 r q) := by
  obtain ⟨e00, e01, -⟩ := blockIndex7 t
  unfold iblk7
  rw [View.read_apply]
  show V c main_v106 (((cfg7.win 0).blk t).view.emb (ix2 p q)) = V c main_v106 (ix2 r q)
  congr 1
  funext a
  apply Fin.ext
  match a with
  | ⟨0, _⟩ => show win7_0.index t (0 : Fin 2) * 10000 + 1 * p.val = r.val; omega
  | ⟨1, _⟩ => show win7_0.index t (1 : Fin 2) * 256 + 1 * q.val = q.val; omega

/-- The bias window's one block is the whole one-row array, at every point. -/
theorem biasRow7 (c : Dev nD) (t : Fin cfg7.N) (q : Fin 256) :
    iblk7 V c 1 t (ix2 (0 : Fin 1) q) = (V c main_v109 : S1x256.Idx → EReal) (ix2 (0 : Fin 1) q) := by
  obtain ⟨-, -, e10, e11, -⟩ := blockIndex7 t
  unfold iblk7
  rw [View.read_apply]
  show V c main_v109 (((cfg7.win 1).blk t).view.emb (ix2 (0 : Fin 1) q)) = V c main_v109 (ix2 (0 : Fin 1) q)
  congr 1
  funext a
  apply Fin.ext
  match a with
  | ⟨0, _⟩ => show win7_1.index t (0 : Fin 2) * 1 + 1 * 0 = 0; omega
  | ⟨1, _⟩ => show win7_1.index t (1 : Fin 2) * 256 + 1 * q.val = q.val; omega

/-- What point `t` writes back is block `t` of bias + rectifier of the aggregated features. -/
theorem flushed7 (c : Dev nD) (b : (⟨S256, .f32⟩ : BufTy).Contents (Elt Ideal))
    (hb : V c main_v109 = shapeCast _ b shapeCasts_S256_S1x256) (t : Fin cfg7.N) :
    (dat7 (F := Ideal) V c).flushed 2 t = ((cfg7.win 2).blk t).view.read (Elt Ideal) (Cert.Stages.biasRelu (F := Ideal) (V c main_v106) b) := by
  show (cfg7.win 2).cut (grid7.coords t) ((dat7 V c).after 2 t) = _
  rw [after7_2]
  unfold out7_2
  rw [View.canon_unit_zero brZeroOffsets]
  simp only [View.ld_unit_zero (S := S10000x256) brZeroOffsets, View.ld_unit_zero (S := S1x256) brZeroOffsets]
  funext j
  obtain ⟨p, q, rfl⟩ : ∃ (p : Fin 10000) (q : Fin 256), j = ix2 p q := ⟨j 0, j 1, eq_ix2 j⟩
  obtain ⟨e00, e01, e10, e11, e20, e21⟩ := blockIndex7 t
  refine (biasReluBlock7 _ _ p q).trans ?_
  have hN : cfg7.N = 5 := N_7
  have hr : t.val * 10000 + p.val < 50000 := by have := t.isLt; have := p.isLt; omega
  rw [rows7 V c t p q ⟨t.val * 10000 + p.val, hr⟩ rfl, biasRow7 V c t q, hb, shapeCast_a_1a_apply, View.read_apply]
  have hemb : ((View.whole main_v110).slice ((win7 2).rect t)).emb (ix2 p q) = ix2 (⟨t.val * 10000 + p.val, hr⟩ : Fin 50000) q := by
    funext a
    apply Fin.ext
    match a with
    | ⟨0, _⟩ => show win7_2.index t (0 : Fin 2) * 10000 + 1 * p.val = t.val * 10000 + p.val; omega
    | ⟨1, _⟩ => show win7_2.index t (1 : Fin 2) * 256 + 1 * q.val = q.val; omega
  rw [hemb, brBiasRelu_apply]
  rfl

/-- An index of the array is in point `t`'s block iff each coordinate is in the block's range on its axis. -/
theorem mem_block7 (t : Fin cfg7.N) (i : S50000x256.Idx) :
    i ∈ ((cfg7.win 2).blk t).view.set ↔ ∀ a : Fin 2, win7_2.index t a * S10000x256.size a ≤ (i a).val ∧ (i a).val < win7_2.index t a * S10000x256.size a + S10000x256.size a := by
  show i ∈ ((View.whole main_v110).slice (win7_2.rect t)).set ↔ _
  rw [View.set_slice_whole, Rect.mem_set_unit]
  exact Iff.rfl

/-- Row `r` is written by point `r / 10000`. -/
theorem cover7 (i : S50000x256.Idx) : ∃ t : Fin cfg7.N, (cfg7.win 2).flush t = true ∧ i ∈ ((cfg7.win 2).blk t).view.set := by
  have hN : cfg7.N = 5 := N_7
  have h0 : (i 0).val < 50000 := (i 0).isLt
  have h1 : (i 1).val < 256 := (i 1).isLt
  obtain ⟨t, ht⟩ : ∃ t : Fin cfg7.N, t.val = (i 0).val / 10000 := ⟨⟨(i 0).val / 10000, by omega⟩, rfl⟩
  obtain ⟨-, -, -, -, e20, e21⟩ := blockIndex7 t
  refine ⟨t, flush7_2 t, ?_⟩
  rw [mem_block7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 256 ≤ (i 1).val ∧ (i 1).val < win7_2.index t (1 : Fin 2) * 256 + 256; omega

/-- The array after the region: bias + rectifier of the aggregated features. -/
theorem final7 (c : Dev nD) (b : (⟨S256, .f32⟩ : BufTy).Contents (Elt Ideal))
    (hb : V c main_v109 = shapeCast _ b shapeCasts_S256_S1x256) :
    (dat7 (F := Ideal) V c).arrAt 2 cfg7.N = Cert.Stages.biasRelu (F := Ideal) (V c main_v106) b :=
  (dat7 V c).arrAt_eq_of_cover 2 _ (fun t _ => flushed7 V c b hb t) cover7

end Cert.KernelIdeal.RegionValue

end
-- ==== Proof.Region8.lean ====
/-
  The classifier region (one grid point, whole-array blocks): what its write-back leaves in the result array is the
  logarithm of the softmax along the ten classes of pooled · W2 + b2, the function `Cert.Stages.cls` of the arrays
  the region finds.

  The body's arithmetic is read as whole vectors, operation by operation: a matrix product into a zero accumulator is
  the product; a row of ten biases cast to one row and repeated down the 128 rows is the bias broadcast twice; a
  lane maximum from −∞ is the fold of max over the ten lanes in either program; a vector of 128 entries cast to a
  column is its broadcast along axis 0, and a column repeated along ten lanes is its broadcast along axes (0, 1);
  the exponential and the logarithm are one function of an extended real in both programs; a lane sum from zero is
  the sum. Every block of the region is its whole array (offsets zero), so the one point's write-back is the result.
-/
import proofs.«158928_j32839319945298_1_alg».proof.Proof.Gen.KernelIdeal.Frame
import proofs.«158928_j32839319945298_1_alg».proof.Proof.Stages
import Idealize.ShloMosaic.Lib.Pipeline.Value
import Idealize.ShloMosaic.Lib.KernelVsHost
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

namespace Classifier

/-! ## Columns and rows -/

section Layout
variable {α : Type}

/-- A vector of `m` entries cast to a column [m, 1] is its broadcast along axis 0. -/
theorem shapeCast_col_eq_broadcastInDim {m : Nat} (v : (⟨1, ![m]⟩ : Shape).Idx → α)
    (hc : (⟨1, ![m]⟩ : Shape).ShapeCasts ⟨2, ![m, 1]⟩)
    (hd : (⟨1, ![m]⟩ : Shape).BroadcastsInDim ⟨2, ![m, 1]⟩ ![0]) :
    shapeCast ⟨2, ![m, 1]⟩ v hc = broadcastInDim ⟨2, ![m, 1]⟩ ![0] hd v := by
  funext i
  have e1 := shapeCast_apply v hc i (ix1 (i 0 : Fin m)) (by
    rw [Shape.rowMajor_val_two, Shape.rowMajor_val_one]
    have h1 : (i 1).val < 1 := (i 1).isLt
    show (i 0).val = (i 0).val * 1 + (i 1).val
    omega)
  have e2 := broadcastInDim_apply ![0] hd v i (ix1 (i 0 : Fin m)) (by
    intro a
    match a with
    | ⟨0, _⟩ =>
      show (i 0).val = if m = 1 then 0 else (i 0).val
      split
      · have := (i 0).isLt; have e : (i 0).val < m := this; omega
      · rfl)
  exact e1.trans e2.symm

/-- A column [m, 1] repeated along `n` lanes: the vector broadcast is the broadcast along axes (0, 1). -/
theorem broadcastTo_col_eq_broadcastInDim {m n : Nat} (w : (⟨2, ![m, 1]⟩ : Shape).Idx → α)
    (hb : (⟨2, ![m, 1]⟩ : Shape).Broadcasts ⟨2, ![m, n]⟩)
    (hd : (⟨2, ![m, 1]⟩ : Shape).BroadcastsInDim ⟨2, ![m, n]⟩ ![0, 1]) :
    broadcastTo ⟨2, ![m, n]⟩ w hb = broadcastInDim ⟨2, ![m, n]⟩ ![0, 1] hd w := by
  funext i
  have hk : ∀ a : Fin 2, ((ix2 (i 0 : Fin m) (0 : Fin 1)) a).val
      = if (⟨2, ![m, 1]⟩ : Shape).size a = 1 then 0 else (i a).val := by
    intro a
    match a with
    | ⟨0, _⟩ =>
      show (i 0).val = if m = 1 then 0 else (i 0).val
      split
      · have := (i 0).isLt; have e : (i 0).val < m := this; omega
      · rfl
    | ⟨1, _⟩ => rfl
  have e1 := broadcastTo_apply w hb i (ix2 (i 0 : Fin m) (0 : Fin 1)) hk
  have e2 := broadcastInDim_apply ![0, 1] hd w i (ix2 (i 0 : Fin m) (0 : Fin 1)) (fun a => by
    match a with
    | ⟨0, _⟩ => exact hk 0
    | ⟨1, _⟩ => exact hk 1)
  exact e1.trans e2.symm

/-- A vector of `n` entries cast to one row and repeated down `m` rows is the vector broadcast to a row along axis 1
    and that row broadcast along axes (0, 1). -/
theorem broadcastTo_row_eq_broadcastInDim_twice {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hr : (⟨1, ![n]⟩ : Shape).BroadcastsInDim ⟨2, ![1, n]⟩ ![1])
    (hd : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd (broadcastInDim ⟨2, ![1, n]⟩ ![1] hr x) := by
  funext i
  have hlane : (i 1).val = if n = 1 then 0 else (i 1).val := by
    split
    · have := (i 1).isLt; have e : (i 1).val < n := this; omega
    · rfl
  have e1 := broadcastTo_apply (shapeCast ⟨2, ![1, n]⟩ x h1) hb i (ix2 (0 : Fin 1) (i 1 : Fin n)) (by
    intro a
    match a with
    | ⟨0, _⟩ => rfl
    | ⟨1, _⟩ => exact hlane)
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![0, 1] hd (broadcastInDim ⟨2, ![1, n]⟩ ![1] hr x) i (ix2 (0 : Fin 1) (i 1 : Fin n)) (by
    intro a
    match a with
    | ⟨0, _⟩ => rfl
    | ⟨1, _⟩ => exact hlane)
  have e4 := broadcastInDim_apply ![1] hr x (ix2 (0 : Fin 1) (i 1 : Fin n)) (ix1 (i 1 : Fin n)) (by
    intro a
    match a with
    | ⟨0, _⟩ => exact hlane)
  exact e1.trans (e2.trans (e3.trans e4).symm)

end Layout

/-! ## The lane maximum -/

/-- A kernel's maximum over one axis from its accumulator's value is the host's reduction with the maximum from an
    initial value that is that value: both are the fold of the maximum over the indices with the same remaining
    coordinates. -/
theorem multiReduction_maximumf_eq_hostReduce {s t u : Shape} {φ : FTy} {a : Fin s.rank} (src : FVec Ideal s φ)
    (acc : BitVec φ.bits) (h : s.Reduces [a] t) (hφ : FKind.Formats φ) (hacc : acc = FKind.maximumf.neutral φ hφ)
    (init : u.Idx → Ideal φ) (h' : s.ReducesTo [a] t) (hu : 0 < u.numel)
    (h0 : init (Shape.Idx.first hu) = FloatOps.ofBits φ acc) :
    multiReduction .maximumf [a] t src acc h hφ hacc = Host.reduce FloatOps.maximumf src init h' hu := by
  funext j
  rw [multiReduction_maximumf_eq_fold, Host.reduce_eq_fold, Shape.ReducesTo.drop_eq_drop h' h, h0]

/-! ## The lane reductions of the [128, 10] logits -/

/-- The row maximum from −∞: the kernel's and the host's. -/
theorem laneMax_eq (z : Vec Ideal S128x10 .f32) (hφ : FKind.Formats .f32)
    (hacc : (0xFF800000#32 : BitVec 32) = 0xFF800000#32) :
    multiReduction (F := Ideal) .maximumf [1] S128 z 0xFF800000#32 reduces_S128x10_S128 hφ hacc
      = Host.reduce FloatOps.maximumf z (constant (F := Ideal) Cert.ReferenceIdeal.S_ .f32 0xFF800000#32)
          Cert.ReferenceIdeal.Gen.reducesTo_S128x10_S128_d1 Cert.ReferenceIdeal.Gen.h_S_ :=
  multiReduction_maximumf_eq_hostReduce z _ _ hφ hacc _ _ _ rfl

/-- The row sum from zero: the kernel's and the host's. -/
theorem laneSum_eq (y : Vec Ideal S128x10 .f32) (hφ : FKind.Formats .f32)
    (hacc : (0x00000000#32 : BitVec 32) = 0x00000000#32) :
    multiReduction (F := Ideal) .add [1] S128 y 0x00000000#32 reduces_S128x10_S128 hφ hacc
      = Host.reduceAdd y (constant (F := Ideal) Cert.ReferenceIdeal.S_ .f32 0x00000000#32)
          Cert.ReferenceIdeal.Gen.reducesTo_S128x10_S128_d1 Cert.ReferenceIdeal.Gen.h_S_ :=
  multiReduction_add_eq_hostReduceAdd y _ _ hφ hacc _ _ _ Ideal.ofBits_zero_f32

/-! ## The body's arithmetic -/

/-- The body's value, from its three loaded blocks when the bias row is the bias vector cast to one row: the
    classifier of the reference program, on the same arrays. -/
theorem payload_eq (x0 : Vec Ideal S128x256 .f32) (x1 : Vec Ideal S256x10 .f32) (b2 : Vec Ideal S10 .f32) :
    k8_pay1 (F := Ideal) x0 x1 (shapeCast S1x10 b2 shapeCasts_S10_S1x10) = Cert.Stages.cls (F := Ideal) x0 x1 b2 := by
  unfold k8_pay1 Cert.Stages.cls Cert.Stages.logSoftmax Cert.Stages.shifted
  simp only [shapeCast_self, matmul_zero_eq_dotGeneral,
    broadcastTo_row_eq_broadcastInDim_twice (hr := Cert.ReferenceIdeal.Gen.bcast_S10_S1x10_1) (hd := Cert.ReferenceIdeal.Gen.bcast_S1x10_S128x10_0_1),
    broadcastTo_col_eq_broadcastInDim (hd := Cert.ReferenceIdeal.Gen.bcast_S128x1_S128x10_0_1),
    shapeCast_col_eq_broadcastInDim (hd := Cert.ReferenceIdeal.Gen.bcast_S128_S128x1_0),
    ]
  rw [laneMax_eq, laneSum_eq]
  rfl

/-! ## The region's blocks -/

section Blocks

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-- The pooled rows' block is the whole array: its index map is constantly zero. -/
theorem pooledBlock (c : Dev nD) (t : Fin cfg8.N) : iblk8 V c 0 t = V c main_v122 := by
  have hz : (fun a => win8_0.index t a * main_v122.ty.shape.size a) = fun _ => 0 :=
    funext fun a => by fin_cases a <;> rfl
  exact Memref.read_access_unit_zero (Elt Ideal) main_v122 hz (fun a => by rw [congrFun hz a]; simp) (V c main_v122)

/-- The weight matrix's block is the whole array. -/
theorem weightBlock (c : Dev nD) (t : Fin cfg8.N) : iblk8 V c 1 t = V c main_arg11 := by
  have hz : (fun a => win8_1.index t a * main_arg11.ty.shape.size a) = fun _ => 0 :=
    funext fun a => by fin_cases a <;> rfl
  exact Memref.read_access_unit_zero (Elt Ideal) main_arg11 hz (fun a => by rw [congrFun hz a]; simp) (V c main_arg11)

/-- The bias row's block is the whole array. -/
theorem biasBlock (c : Dev nD) (t : Fin cfg8.N) : iblk8 V c 2 t = V c main_v123 := by
  have hz : (fun a => win8_2.index t a * main_v123.ty.shape.size a) = fun _ => 0 :=
    funext fun a => by fin_cases a <;> rfl
  exact Memref.read_access_unit_zero (Elt Ideal) main_v123 hz (fun a => by rw [congrFun hz a]; simp) (V c main_v123)

/-- What the one point writes back is the classifier of the arrays the region finds, read through the result's
    block (the whole array). -/
theorem flushed_eq (c : Dev nD) (b2 : (⟨S10, .f32⟩ : BufTy).Contents (Elt Ideal))
    (hb : V c main_v123 = shapeCast S1x10 b2 shapeCasts_S10_S1x10) (t : Fin cfg8.N) :
    (dat8 (F := Ideal) V c).flushed 3 t
      = ((cfg8.win 3).blk t).view.read (Elt Ideal) (Cert.Stages.cls (F := Ideal) (V c main_v122) (V c main_arg11) b2) := by
  show (cfg8.win 3).cut (grid8.coords t) ((dat8 V c).after 3 t) = _
  rw [after8_3]
  unfold out8_3
  rw [View.canon_unit_zero origin2]
  simp only [View.ld_unit_zero (S := S128x256) origin2, View.ld_unit_zero (S := S256x10) origin2,
    View.ld_unit_zero (S := S1x10) origin2]
  rw [pooledBlock, weightBlock, biasBlock, hb, payload_eq]
  have hz : (fun a => win8_3.index t a * main_v124.ty.shape.size a) = fun _ => 0 :=
    funext fun a => by fin_cases a <;> rfl
  exact (Memref.read_access_unit_zero (Elt Ideal) main_v124 hz (fun a => by rw [congrFun hz a]; simp) _).symm

/-- The one point's block covers the result array. -/
theorem covered (c : Dev nD) (i : ((cfg8.win 3).arr.view.loc (c.tc : Thread nD τ)).2.ty.Idx) :
    ∃ t : Fin cfg8.N, (cfg8.win 3).flush t = true ∧ i ∈ ((cfg8.win 3).blk t).view.set := by
  refine ⟨t8_0, flush8_3 t8_0, ?_⟩
  show i ∈ ((View.whole main_v124).slice (win8_3.rect t8_0)).set
  rw [View.set_slice_whole]
  have hz : (fun a => win8_3.index t8_0 a * win8_3.size a) = fun _ => 0 :=
    funext fun a => by fin_cases a <;> rfl
  exact View.mem_set_unit_zero (S := S128x10) hz _ i

end Blocks

end Classifier

open Classifier

/-- THE RESULT ARRAY after the classifier region: the logarithm of the softmax of pooled · W2 + b2, of the arrays the
    region finds, when the bias row it finds is the bias vector cast to one row. -/
theorem final8 (V : (c : Dev nD) → (b : Ref sig .tc) → Buf (Elt Ideal) ((c : Thread nD τ).loc b)) (c : Dev nD)
    (b2 : (⟨S10, .f32⟩ : BufTy).Contents (Elt Ideal))
    (hb : V c main_v123 = shapeCast S1x10 b2 shapeCasts_S10_S1x10) :
    (dat8 (F := Ideal) V c).arrAt 3 cfg8.N = Cert.Stages.cls (F := Ideal) (V c main_v122) (V c main_arg11) b2 :=
  (dat8 (F := Ideal) V c).arrAt_eq_of_cover 3 (Cert.Stages.cls (F := Ideal) (V c main_v122) (V c main_arg11) b2)
    (fun t _ => flushed_eq V c b2 hb t) (covered c)

end Cert.KernelIdeal.RegionValue

end
-- ==== Proof.FoldChain.lean ====
/-
  The fold through the program, boundary by boundary: each region's output array and each host stretch's results are
  the network's layer values of the launch memory, so the result buffer ends at the class scores.
-/
import proofs.«158928_j32839319945298_1_alg».proof.Proof.Gen.KernelIdeal.Frame
import proofs.«158928_j32839319945298_1_alg».proof.Proof.Stages
import Idealize.ShloMosaic.Lib.StableHlo.Run
import Idealize.ShloMosaic.PureOps.Ideal
import proofs.«158928_j32839319945298_1_alg».proof.Proof.FoldKeep
import proofs.«158928_j32839319945298_1_alg».proof.Proof.FoldStretch
import proofs.«158928_j32839319945298_1_alg».proof.Proof.Layers
import proofs.«158928_j32839319945298_1_alg».proof.Proof.Region0
import proofs.«158928_j32839319945298_1_alg».proof.Proof.Region1
import proofs.«158928_j32839319945298_1_alg».proof.Proof.Region2
import proofs.«158928_j32839319945298_1_alg».proof.Proof.Region3
import proofs.«158928_j32839319945298_1_alg».proof.Proof.Region4
import proofs.«158928_j32839319945298_1_alg».proof.Proof.Region5
import proofs.«158928_j32839319945298_1_alg».proof.Proof.Region6
import proofs.«158928_j32839319945298_1_alg».proof.Proof.Region7
import proofs.«158928_j32839319945298_1_alg».proof.Proof.Region8
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it was. -/
local macro "keepHost " ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## Layer 1 -/

/-- After region 0 its output array holds x · W1. -/
theorem y1_at2 : W2 m ρ c (Proc.devRef .tc main_v27) = y1 m c := by
  refine (W2_arr m ρ c 2).trans ((RegionValue.final0 (V1 m ρ) c).trans ?_)
  show Cert.Stages.mm128 (F := Ideal) (W1 m ρ c (Proc.devRef .tc main_arg0)) (W1 m ρ c (Proc.devRef .tc main_arg3)) = _
  rw [arg0_at1, arg3_at1]; rfl

theorem g1_at3 : W3 m ρ c (Proc.devRef .tc main_v41) = g1 m c := by
  rw [agg_at3, src_at2, dst_at2, nrm_at2, y1_at2]; rfl

theorem h1_at4 : W4 m ρ c (Proc.devRef .tc main_v47) = h1 m c := by
  refine (W4_arr m ρ c 6).trans ((RegionValue.final1 (V3 m ρ) c (m ((c : Thread nD τ).loc main_arg4)) (m ((c : Thread nD τ).loc main_arg5)) (m ((c : Thread nD τ).loc main_arg6)) (m ((c : Thread nD τ).loc main_arg7)) (m ((c : Thread nD τ).loc main_arg8))
    ((row4_at3 m ρ c).trans (by rw [arg4_at2])) ((row5_at3 m ρ c).trans (by rw [arg5_at2])) ((row6_at3 m ρ c).trans (by rw [arg6_at2]))
    ((row7_at3 m ρ c).trans (by rw [arg7_at2])) ((row8_at3 m ρ c).trans (by rw [arg8_at2]))).trans ?_)
  show Cert.Stages.bnRelu (F := Ideal) (W3 m ρ c (Proc.devRef .tc main_v41)) _ _ _ _ _ = _
  rw [g1_at3]; rfl

/-! ## Layer 2 -/

theorem h1_at5 : W5 m ρ c (Proc.devRef .tc main_v47) = h1 m c := (keepHost hostOps2).trans (h1_at4 m ρ c)

theorem y2_at6 : W6 m ρ c (Proc.devRef .tc main_v50) = y2 m c := by
  refine (W6_arr m ρ c 2).trans ((RegionValue.final2 (V5 m ρ) c).trans ?_)
  show Cert.Stages.mm256 (F := Ideal) (W5 m ρ c (Proc.devRef .tc main_v47)) (W5 m ρ c (Proc.devRef .tc main_v49)) = _
  rw [h1_at5, w0_at5, arg9_at4]; rfl

theorem g2_at7 : W7 m ρ c (Proc.devRef .tc main_v64) = g2 m c := by
  rw [agg_at7, src_at6, dst_at6, nrm_at6, y2_at6]; rfl

theorem h2_at8 : W8 m ρ c (Proc.devRef .tc main_v68) = h2 m c := by
  refine (W8_arr m ρ c 2).trans ((RegionValue.final3 (V7 m ρ) c (Cert.Stages.bsl0 (F := Ideal) (m ((c : Thread nD τ).loc main_arg10)))
    ((bias_at7 m ρ c).trans (by rw [arg10_at6]))).trans ?_)
  show Cert.Stages.biasRelu (F := Ideal) (W7 m ρ c (Proc.devRef .tc main_v64)) _ = _
  rw [g2_at7]; rfl

/-! ## Layer 3 -/

theorem h2_at9 : W9 m ρ c (Proc.devRef .tc main_v68) = h2 m c := (keepHost hostOps4).trans (h2_at8 m ρ c)

theorem y3_at10 : W10 m ρ c (Proc.devRef .tc main_v71) = y3 m c := by
  refine (W10_arr m ρ c 2).trans ((RegionValue.final4 (V9 m ρ) c).trans ?_)
  show Cert.Stages.mm256 (F := Ideal) (W9 m ρ c (Proc.devRef .tc main_v68)) (W9 m ρ c (Proc.devRef .tc main_v70)) = _
  rw [h2_at9, w1_at9, arg9_at8]; rfl

theorem g3_at11 : W11 m ρ c (Proc.devRef .tc main_v85) = g3 m c := by
  rw [agg_at11, src_at10, dst_at10, nrm_at10, y3_at10]; rfl

theorem h3_at12 : W12 m ρ c (Proc.devRef .tc main_v89) = h3 m c := by
  refine (W12_arr m ρ c 2).trans ((RegionValue.final5 (V11 m ρ) c (Cert.Stages.bsl1 (F := Ideal) (m ((c : Thread nD τ).loc main_arg10)))
    ((bias_at11 m ρ c).trans (by rw [arg10_at10]))).trans ?_)
  show Cert.Stages.biasRelu (F := Ideal) (W11 m ρ c (Proc.devRef .tc main_v85)) _ = _
  rw [g3_at11]; rfl

/-! ## Layer 4 -/

theorem h3_at13 : W13 m ρ c (Proc.devRef .tc main_v89) = h3 m c := (keepHost hostOps6).trans (h3_at12 m ρ c)

theorem y4_at14 : W14 m ρ c (Proc.devRef .tc main_v92) = y4 m c := by
  refine (W14_arr m ρ c 2).trans ((RegionValue.final6 (V13 m ρ) c).trans ?_)
  show Cert.Stages.mm256 (F := Ideal) (W13 m ρ c (Proc.devRef .tc main_v89)) (W13 m ρ c (Proc.devRef .tc main_v91)) = _
  rw [h3_at13, w2_at13, arg9_at12]; rfl

theorem g4_at15 : W15 m ρ c (Proc.devRef .tc main_v106) = g4 m c := by
  rw [agg_at15, src_at14, dst_at14, nrm_at14, y4_at14]; rfl

theorem h4_at16 : W16 m ρ c (Proc.devRef .tc main_v110) = h4 m c := by
  refine (W16_arr m ρ c 2).trans ((RegionValue.final7 (V15 m ρ) c (Cert.Stages.bsl2 (F := Ideal) (m ((c : Thread nD τ).loc main_arg10)))
    ((bias_at15 m ρ c).trans (by rw [arg10_at14]))).trans ?_)
  show Cert.Stages.biasRelu (F := Ideal) (W15 m ρ c (Proc.devRef .tc main_v106)) _ = _
  rw [g4_at15]; rfl

/-! ## Pooling and the classifier -/

theorem pooled_at17 : W17 m ρ c (Proc.devRef .tc main_v122) = pooled m c := by
  rw [pool_at17, arg2_at16, h4_at16]; rfl

theorem w2_at17 : W17 m ρ c (Proc.devRef .tc main_arg11) = (m ((c : Thread nD τ).loc main_arg11)) := (keepHost hostOps8).trans (arg11_at16 m ρ c)

/-- The result buffer at the last boundary holds the class scores: the network of the arguments. -/
theorem scores_at18 : W18 m ρ c (Proc.devRef .tc main_v124) = scores m c := by
  refine (W18_arr m ρ c 3).trans ((RegionValue.final8 (V17 m ρ) c (m ((c : Thread nD τ).loc main_arg12))
    ((b2_at17 m ρ c).trans (by rw [arg12_at16]))).trans ?_)
  show Cert.Stages.cls (F := Ideal) (W17 m ρ c (Proc.devRef .tc main_v122)) (W17 m ρ c (Proc.devRef .tc main_arg11)) _ = _
  rw [pooled_at17, w2_at17]; rfl

end Cert.KernelIdeal.Fold

end
-- ==== Proof.lean ====
/-
  A four-layer graph-convolution network over 50000 nodes and 800000 edges (with self-loops), pooled per graph and
  classified: the kernel program computes each layer's feature transform x · W, the bias / batch-normalisation /
  rectifier epilogue and the final classifier in tiled kernel regions, the gathers and scatter-adds of the message
  passing on the host; the reference computes everything on the host.

  Over the extended reals the two programs are the same function of the thirteen arguments, `Cert.Stages.net`:
  * a region's tiles of 10000 rows cover its output array, and on each tile the body is the stage's function of the
    input tiles: a product accumulated from zero is the sum over k of x(r,k)·w(k,j), the host's dot_general; the
    epilogues are pointwise; the changes of float format are the identity; the classifier's lane reductions are the
    host's reductions (the per-region modules);
  * the host operations between the regions are the reference's own, so the program's buffers at each boundary are the
    network's layer values (the fold modules), and the reference's composed term is the same network (`Cert.RefNet`).
  No law of arithmetic beyond this rearrangement of sums is used, so the precondition is never opened.
-/
import proofs.«158928_j32839319945298_1_alg».proof.Defs
import proofs.«158928_j32839319945298_1_alg».proof.Proof.Gen.Kernel
import proofs.«158928_j32839319945298_1_alg».proof.Proof.Gen.Kernel.Frame
import proofs.«158928_j32839319945298_1_alg».proof.Proof.Gen.KernelIdeal
import proofs.«158928_j32839319945298_1_alg».proof.Proof.Gen.KernelIdeal.Frame
import proofs.«158928_j32839319945298_1_alg».proof.Proof.Gen.ReferenceIdeal
import proofs.«158928_j32839319945298_1_alg».proof.Proof.Gen.ReferenceIdeal.Run
import proofs.«158928_j32839319945298_1_alg».proof.Proof.Gen.Pre_finite_inputs
import proofs.«158928_j32839319945298_1_alg».proof.Proof.KernelRun
import proofs.«158928_j32839319945298_1_alg».proof.Proof.RefNet
import proofs.«158928_j32839319945298_1_alg».proof.Proof.FoldChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network's class scores of arguments that agree. -/
theorem algebraic : Cert.algebraic_KernelIdeal_ReferenceIdeal := by
  intro m ρ m' ρ' _ hagree
  refine ⟨fun c => Cert.KernelIdeal.Fold.scores m c, ?_, ?_⟩
  · exact (θ_run Cert.KernelIdeal.defs _ _).mono
      (fun r h c => ⟨(h c).1.trans (Cert.KernelIdeal.Fold.scores_at18 m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.RefNet.res_eq_net, h0, h1, h2, h3, h4, h5, h6, h7, h8, h9, h10, h11, h12]
    exact (Cert.KernelIdeal.Fold.scores_eq_net m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
